-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x64x64 : Shape := ⟨4, ![4, 256, 64, 64]⟩
abbrev S_ : Shape := ⟨0, ![]⟩
abbrev S256 : Shape := ⟨1, ![256]⟩
abbrev S1x256x1x1 : Shape := ⟨4, ![1, 256, 1, 1]⟩
abbrev S4x64x64 : Shape := ⟨3, ![4, 64, 64]⟩

class Facts : Prop where
  bcast_S_S4x256x64x64 : S_.BroadcastsInDim S4x256x64x64 (![] : Fin 0 → Fin S4x256x64x64.rank)
  reducesTo_S4x256x64x64_S_d0_1_2_3 : S4x256x64x64.ReducesTo [0, 1, 2, 3] S_
  h_S_ : 0 < S_.numel
  reducesTo_S4x256x64x64_S256_d0_2_3 : S4x256x64x64.ReducesTo [0, 2, 3] S256
  bcast_S_S256 : S_.BroadcastsInDim S256 (![] : Fin 0 → Fin S256.rank)
  shapeCasts_S256_S1x256x1x1 : S256.ShapeCasts S1x256x1x1
  bcast_S1x256x1x1_S4x256x64x64_0_1_2_3 : S1x256x1x1.BroadcastsInDim S4x256x64x64 (![0, 1, 2, 3] : Fin 4 → Fin S4x256x64x64.rank)
  reducesTo_S4x256x64x64_S4x64x64_d1 : S4x256x64x64.ReducesTo [1] S4x64x64
  bcast_S_S4x64x64 : S_.BroadcastsInDim S4x64x64 (![] : Fin 0 → Fin S4x64x64.rank)
  reducesTo_S4x64x64_S_d0_1_2 : S4x64x64.ReducesTo [0, 1, 2] S_

variable [Facts]

def fn_part1 {F : FTy → Type} [FloatOps F] (main_arg1 : FVec F S4x256x64x64 .f32) (main_v8 : IVec S_ 1) (main_v16 : FVec F S4x64x64 .f32) : IVec S_ 1 :=
  let main_cst_5 : FVec F S_ .f32 := constant S_ .f32 0x00000000#32
  let main_v17 : FVec F S4x64x64 .f32 := broadcastInDim S4x64x64 ![] bcast_S_S4x64x64 main_cst_5
  let main_v18 : IVec S4x64x64 1 := cmpf .ogt main_v16 main_v17
  let main_c_6 : IVec S_ 1 := constantI S_ 1 1#1
  let main_v19 : IVec S_ 1 := (fun x v => Host.reduce IntOp.andi x v reducesTo_S4x64x64_S_d0_1_2 h_S_) main_v18 main_c_6
  let main_v20 : IVec S_ 1 := andi main_v8 main_v19
  let main_cst_7 : FVec F S_ .f32 := constant S_ .f32 0x00000000#32
  let main_v21 : FVec F S256 .f32 := (fun x v => Host.reduceAdd x v reducesTo_S4x256x64x64_S256_d0_2_3 h_S_) main_arg1 main_cst_7
  let main_cst_8 : FVec F S_ .f32 := constant S_ .f32 0x46800000#32
  let main_v22 : FVec F S256 .f32 := broadcastInDim S256 ![] bcast_S_S256 main_cst_8
  let main_v23 : FVec F S256 .f32 := Host.divf main_v21 main_v22
  let main_v24 : FVec F S1x256x1x1 .f32 := shapeCast S1x256x1x1 main_v23 shapeCasts_S256_S1x256x1x1
  let main_v25 : FVec F S4x256x64x64 .f32 := broadcastInDim S4x256x64x64 ![0, 1, 2, 3] bcast_S1x256x1x1_S4x256x64x64_0_1_2_3 main_v24
  let main_v26 : FVec F S4x256x64x64 .f32 := subf main_arg1 main_v25
  let main_v27 : FVec F S4x256x64x64 .f32 := mulf main_v26 main_v26
  let main_cst_9 : FVec F S_ .f32 := constant S_ .f32 0x00000000#32
  let main_v28 : FVec F S4x64x64 .f32 := (fun x v => Host.reduceAdd x v reducesTo_S4x256x64x64_S4x64x64_d1 h_S_) main_v27 main_cst_9
  let main_cst_10 : FVec F S_ .f32 := constant S_ .f32 0x00000000#32
  let main_v29 : FVec F S4x64x64 .f32 := broadcastInDim S4x64x64 ![] bcast_S_S4x64x64 main_cst_10
  let main_v30 : IVec S4x64x64 1 := cmpf .ogt main_v28 main_v29
  let main_c_11 : IVec S_ 1 := constantI S_ 1 1#1
  let main_v31 : IVec S_ 1 := (fun x v => Host.reduce IntOp.andi x v reducesTo_S4x64x64_S_d0_1_2 h_S_) main_v30 main_c_11
  let main_v32 : IVec S_ 1 := andi main_v20 main_v31
  main_v32

def fn {F : FTy → Type} [FloatOps F] (main_arg0 : FVec F S4x256x64x64 .f32) (main_arg1 : FVec F S4x256x64x64 .f32) : IVec S_ 1 :=
  let main_v0 : FVec F S4x256x64x64 .f32 := Host.absf main_arg0
  let main_cst : FVec F S_ .f32 := constant S_ .f32 0x7F800000#32
  let main_v1 : FVec F S4x256x64x64 .f32 := broadcastInDim S4x256x64x64 ![] bcast_S_S4x256x64x64 main_cst
  let main_v2 : IVec S4x256x64x64 1 := cmpf .olt main_v0 main_v1
  let main_c : IVec S_ 1 := constantI S_ 1 1#1
  let main_v3 : IVec S_ 1 := (fun x v => Host.reduce IntOp.andi x v reducesTo_S4x256x64x64_S_d0_1_2_3 h_S_) main_v2 main_c
  let main_v4 : FVec F S4x256x64x64 .f32 := Host.absf main_arg1
  let main_cst_0 : FVec F S_ .f32 := constant S_ .f32 0x7F800000#32
  let main_v5 : FVec F S4x256x64x64 .f32 := broadcastInDim S4x256x64x64 ![] bcast_S_S4x256x64x64 main_cst_0
  let main_v6 : IVec S4x256x64x64 1 := cmpf .olt main_v4 main_v5
  let main_c_1 : IVec S_ 1 := constantI S_ 1 1#1
  let main_v7 : IVec S_ 1 := (fun x v => Host.reduce IntOp.andi x v reducesTo_S4x256x64x64_S_d0_1_2_3 h_S_) main_v6 main_c_1
  let main_v8 : IVec S_ 1 := andi main_v3 main_v7
  let main_cst_2 : FVec F S_ .f32 := constant S_ .f32 0x00000000#32
  let main_v9 : FVec F S256 .f32 := (fun x v => Host.reduceAdd x v reducesTo_S4x256x64x64_S256_d0_2_3 h_S_) main_arg1 main_cst_2
  let main_cst_3 : FVec F S_ .f32 := constant S_ .f32 0x46800000#32
  let main_v10 : FVec F S256 .f32 := broadcastInDim S256 ![] bcast_S_S256 main_cst_3
  let main_v11 : FVec F S256 .f32 := Host.divf main_v9 main_v10
  let main_v12 : FVec F S1x256x1x1 .f32 := shapeCast S1x256x1x1 main_v11 shapeCasts_S256_S1x256x1x1
  let main_v13 : FVec F S4x256x64x64 .f32 := broadcastInDim S4x256x64x64 ![0, 1, 2, 3] bcast_S1x256x1x1_S4x256x64x64_0_1_2_3 main_v12
  let main_v14 : FVec F S4x256x64x64 .f32 := subf main_arg0 main_v13
  let main_v15 : FVec F S4x256x64x64 .f32 := mulf main_v14 main_v14
  let main_cst_4 : FVec F S_ .f32 := constant S_ .f32 0x00000000#32
  let main_v16 : FVec F S4x64x64 .f32 := (fun x v => Host.reduceAdd x v reducesTo_S4x256x64x64_S4x64x64_d1 h_S_) main_v15 main_cst_4
  fn_part1 (F := F) main_arg1 main_v8 main_v16
-- ==== Kernel.lean ====
abbrev S4x256x64x64 : Shape := ⟨4, ![4, 256, 64, 64]⟩
abbrev S_ : Shape := ⟨0, ![]⟩
abbrev S256 : Shape := ⟨1, ![256]⟩
abbrev S256x1 : Shape := ⟨2, ![256, 1]⟩
abbrev S4x256x4096 : Shape := ⟨3, ![4, 256, 4096]⟩
abbrev S1x256x2048 : Shape := ⟨3, ![1, 256, 2048]⟩
abbrev S256x2048 : Shape := ⟨2, ![256, 2048]⟩
abbrev S2048 : Shape := ⟨1, ![2048]⟩
abbrev S1x2048 : Shape := ⟨2, ![1, 2048]⟩
abbrev S4x1x4096 : Shape := ⟨3, ![4, 1, 4096]⟩
abbrev S1x256x512 : Shape := ⟨3, ![1, 256, 512]⟩
abbrev S1x256x4096 : Shape := ⟨3, ![1, 256, 4096]⟩
abbrev S1x1x4096 : Shape := ⟨3, ![1, 1, 4096]⟩
abbrev S1x4096 : Shape := ⟨2, ![1, 4096]⟩
abbrev S256x512 : Shape := ⟨2, ![256, 512]⟩
abbrev S256x4096 : Shape := ⟨2, ![256, 4096]⟩
abbrev S512x4096 : Shape := ⟨2, ![512, 4096]⟩
abbrev S512 : Shape := ⟨1, ![512]⟩
abbrev S512x1 : Shape := ⟨2, ![512, 1]⟩
abbrev S4096 : Shape := ⟨1, ![4096]⟩
abbrev S4x4096 : Shape := ⟨2, ![4, 4096]⟩
abbrev S4 : Shape := ⟨1, ![4]⟩

abbrev nBuf : Space → Nat
  | .hbm => 28
  | .vmem => 15
  | .smem => 0
  | _ => 0

abbrev bufTy : (tb : Table) → Fin (tcTables nBuf tb) → BufTy
  | .hbm, ⟨0, _⟩ => ⟨S4x256x64x64, .f32⟩
  | .hbm, ⟨1, _⟩ => ⟨S4x256x64x64, .f32⟩
  | .hbm, ⟨2, _⟩ => ⟨S_, .f32⟩
  | .hbm, ⟨3, _⟩ => ⟨S256, .f32⟩
  | .hbm, ⟨4, _⟩ => ⟨S_, .f32⟩
  | .hbm, ⟨5, _⟩ => ⟨S256, .f32⟩
  | .hbm, ⟨6, _⟩ => ⟨S256, .f32⟩
  | .hbm, ⟨7, _⟩ => ⟨S256x1, .f32⟩
  | .hbm, ⟨8, _⟩ => ⟨S4x256x4096, .f32⟩
  | .hbm, ⟨9, _⟩ => ⟨S4x256x4096, .f32⟩
  | .hbm, ⟨10, _⟩ => ⟨S4x256x4096, .bf16⟩
  | .hbm, ⟨11, _⟩ => ⟨S4x256x4096, .bf16⟩
  | .hbm, ⟨12, _⟩ => ⟨S4x1x4096, .f32⟩
  | .hbm, ⟨13, _⟩ => ⟨S4x4096, .f32⟩
  | .hbm, ⟨14, _⟩ => ⟨S_, .f32⟩
  | .hbm, ⟨15, _⟩ => ⟨S4, .f32⟩
  | .hbm, ⟨16, _⟩ => ⟨S_, .f32⟩
  | .hbm, ⟨17, _⟩ => ⟨S4, .f32⟩
  | .hbm, ⟨18, _⟩ => ⟨S4, .f32⟩
  | .hbm, ⟨19, _⟩ => ⟨S_, .f32⟩
  | .hbm, ⟨20, _⟩ => ⟨S4, .f32⟩
  | .hbm, ⟨21, _⟩ => ⟨S4, .f32⟩
  | .hbm, ⟨22, _⟩ => ⟨S4, .f32⟩
  | .hbm, ⟨23, _⟩ => ⟨S4, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S256x1, .f32⟩
  | .local _ .vmem, ⟨5, _⟩ => ⟨S1x256x2048, .bf16⟩
  | .local _ .vmem, ⟨6, _⟩ => ⟨S1x256x2048, .bf16⟩
  | .local _ .vmem, ⟨7, _⟩ => ⟨S1x256x2048, .bf16⟩
  | .local _ .vmem, ⟨8, _⟩ => ⟨S1x256x2048, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x4096, .bf16⟩
  | .local _ .vmem, ⟨12, _⟩ => ⟨S1x256x4096, .bf16⟩
  | .local _ .vmem, ⟨13, _⟩ => ⟨S1x1x4096, .f32⟩
  | .local _ .vmem, ⟨14, _⟩ => ⟨S1x1x4096, .f32⟩
  | _, _ => ⟨S4x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  reducesTo_S4x256x64x64_S256_d0_2_3 : S4x256x64x64.ReducesTo [0, 2, 3] S256
  h_S_ : 0 < S_.numel
  bcast_S_S256 : S_.BroadcastsInDim S256 (![] : Fin 0 → Fin S256.rank)
  shapeCasts_S256_S256x1 : S256.ShapeCasts S256x1
  shapeCasts_S4x256x64x64_S4x256x4096 : S4x256x64x64.ShapeCasts S4x256x4096
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x2048 : S256x1.Broadcasts S256x2048
  reduces_S256x2048_S2048 : S256x2048.Reduces [0] S2048
  shapeCasts_S2048_S1x2048 : S2048.ShapeCasts S1x2048
  broadcasts_S1x2048_S256x2048 : S1x2048.Broadcasts S256x2048
  bitsLt_bf16_f32 : FTy.bits .bf16 < FTy.bits .f32
  shapeCasts_S256x2048_S1x256x2048 : S256x2048.ShapeCasts S1x256x2048
  packedbf16_S1x256x2048_S1x256x2048_0_0_0 : (Rect.unit (s := S1x256x2048) ![0, 0, 0] S1x256x2048.size inb_S1x256x2048_S1x256x2048_0_0_0).PackedRows (EltTy.packing .bf16)
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  reduces_S512x4096_S512 : S512x4096.Reduces [1] S512
  shapeCasts_S512_S512x1 : S512.ShapeCasts S512x1
  broadcasts_S512x1_S512x4096 : S512x1.Broadcasts S512x4096
  reduces_S512x4096_S4096 : S512x4096.Reduces [0] S4096
  shapeCasts_S4096_S1x4096 : S4096.ShapeCasts S1x4096
  shapeCasts_S4x1x4096_S4x4096 : S4x1x4096.ShapeCasts S4x4096
  reducesTo_S4x4096_S4_d1 : S4x4096.ReducesTo [1] S4
  bcast_S_S4 : S_.BroadcastsInDim S4 (![] : Fin 0 → Fin S4.rank)
  reducesTo_S4_S_d0 : S4.ReducesTo [0] S_
  dot_S256x512_S256x4096_S512x4096_0_0_1_1_n_n_wf : DotDims.WF S256x512 S256x4096 S512x4096 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S4x256x4096.size a
  hwx0_0 : ∀ i : grid0.Coords, EltTy.bits .f32 = 32 ∨ (Rect.block (s := S4x256x4096) S1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x2048.size a ≤ S4x256x4096.size a
  hwx0_1 : ∀ i : grid0.Coords, EltTy.bits .f32 = 32 ∨ (Rect.block (s := S4x256x4096) S1x256x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S4x256x4096.size a
  hwx0_3 : ∀ i : grid0.Coords, EltTy.bits .bf16 = 32 ∨ (Rect.block (s := S4x256x4096) S1x256x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S4x256x4096.size a
  hwx0_4 : ∀ i : grid0.Coords, EltTy.bits .bf16 = 32 ∨ (Rect.block (s := S4x256x4096) S1x256x2048.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x512.size a ≤ S4x256x4096.size a
  hwx1_0 : ∀ i : grid1.Coords, EltTy.bits .bf16 = 32 ∨ (Rect.block (s := S4x256x4096) S1x256x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x4096.size a ≤ S4x256x4096.size a
  hwx1_1 : ∀ i : grid1.Coords, EltTy.bits .bf16 = 32 ∨ (Rect.block (s := S4x256x4096) S1x256x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x4096.size a ≤ S4x1x4096.size a
  hwx1_2 : ∀ i : grid1.Coords, EltTy.bits .f32 = 32 ∨ (Rect.block (s := S4x1x4096) S1x1x4096.size (cc1_transform_2 i) (hinb1_2 i)).WholeWords (EltTy.packing .f32)

variable [Facts₀]

def dot_S256x512_S256x4096_S512x4096_0_0_1_1_n_n : DotDims S256x512 S256x4096 S512x4096 where
  lhsContracting := [0]
  rhsContracting := [0]
  lhsNonContracting := [1]
  rhsNonContracting := [1]
  lhsBatch := []
  rhsBatch := []
  wf := dot_S256x512_S256x4096_S512x4096_0_0_1_1_n_n_wf

abbrev win0_0 : Pipeline.Window sig grid0 :=
  Pipeline.Window.ofSpec (Memref.whole main_v4) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S1x256x2048.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S1x256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v6_0) S1x256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S1x256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x1x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x256x64x64 : Shape := ⟨4, ![4, 256, 64, 64]⟩
abbrev S_ : Shape := ⟨0, ![]⟩
abbrev S256 : Shape := ⟨1, ![256]⟩
abbrev S1x256x1x1 : Shape := ⟨4, ![1, 256, 1, 1]⟩
abbrev S4x64x64 : Shape := ⟨3, ![4, 64, 64]⟩
abbrev S4x1x64x64 : Shape := ⟨4, ![4, 1, 64, 64]⟩
abbrev S4x256x4096 : Shape := ⟨3, ![4, 256, 4096]⟩
abbrev S4x4096x4096 : Shape := ⟨3, ![4, 4096, 4096]⟩
abbrev S4x4096 : Shape := ⟨2, ![4, 4096]⟩
abbrev S4x4096x1 : Shape := ⟨3, ![4, 4096, 1]⟩
abbrev S4 : Shape := ⟨1, ![4]⟩

abbrev nBuf : Space → Nat
  | .hbm => 68
  | .vmem => 0
  | .smem => 0
  | _ => 0

abbrev bufTy : (tb : Table) → Fin (tcTables nBuf tb) → BufTy
  | .hbm, ⟨0, _⟩ => ⟨S4x256x64x64, .f32⟩
  | .hbm, ⟨1, _⟩ => ⟨S4x256x64x64, .f32⟩
  | .hbm, ⟨2, _⟩ => ⟨S_, .f32⟩
  | .hbm, ⟨3, _⟩ => ⟨S256, .f32⟩
  | .hbm, ⟨4, _⟩ => ⟨S_, .f32⟩
  | .hbm, ⟨5, _⟩ => ⟨S256, .f32⟩
  | .hbm, ⟨6, _⟩ => ⟨S256, .f32⟩
  | .hbm, ⟨7, _⟩ => ⟨S1x256x1x1, .f32⟩
  | .hbm, ⟨8, _⟩ => ⟨S4x256x64x64, .f32⟩
  | .hbm, ⟨9, _⟩ => ⟨S4x256x64x64, .f32⟩
  | .hbm, ⟨10, _⟩ => ⟨S4x256x64x64, .f32⟩
  | .hbm, ⟨11, _⟩ => ⟨S4x256x64x64, .f32⟩
  | .hbm, ⟨12, _⟩ => ⟨S4x256x64x64, .f32⟩
  | .hbm, ⟨13, _⟩ => ⟨S_, .f32⟩
  | .hbm, ⟨14, _⟩ => ⟨S4x64x64, .f32⟩
  | .hbm, ⟨15, _⟩ => ⟨S4x1x64x64, .f32⟩
  | .hbm, ⟨16, _⟩ => ⟨S4x1x64x64, .f32⟩
  | .hbm, ⟨17, _⟩ => ⟨S4x256x64x64, .f32⟩
  | .hbm, ⟨18, _⟩ => ⟨S4x256x64x64, .f32⟩
  | .hbm, ⟨19, _⟩ => ⟨S4x256x64x64, .f32⟩
  | .hbm, ⟨20, _⟩ => ⟨S_, .f32⟩
  | .hbm, ⟨21, _⟩ => ⟨S4x64x64, .f32⟩
  | .hbm, ⟨22, _⟩ => ⟨S4x1x64x64, .f32⟩
  | .hbm, ⟨23, _⟩ => ⟨S4x1x64x64, .f32⟩
  | .hbm, ⟨24, _⟩ => ⟨S4x256x64x64, .f32⟩
  | .hbm, ⟨25, _⟩ => ⟨S4x256x64x64, .f32⟩
  | .hbm, ⟨26, _⟩ => ⟨S4x256x4096, .f32⟩
  | .hbm, ⟨27, _⟩ => ⟨S4x256x4096, .f32⟩
  | .hbm, ⟨28, _⟩ => ⟨S4x4096x4096, .f32⟩
  | .hbm, ⟨29, _⟩ => ⟨S_, .f32⟩
  | .hbm, ⟨30, _⟩ => ⟨S4x4096x4096, .f32⟩
  | .hbm, ⟨31, _⟩ => ⟨S4x4096x4096, .f32⟩
  | .hbm, ⟨32, _⟩ => ⟨S_, .f32⟩
  | .hbm, ⟨33, _⟩ => ⟨S4x4096, .f32⟩
  | .hbm, ⟨34, _⟩ => ⟨S4x4096x1, .f32⟩
  | .hbm, ⟨35, _⟩ => ⟨S_, .f32⟩
  | .hbm, ⟨36, _⟩ => ⟨S4x4096x1, .f32⟩
  | .hbm, ⟨37, _⟩ => ⟨S4x4096x1, .f32⟩
  | .hbm, ⟨38, _⟩ => ⟨S4x4096x4096, .f32⟩
  | .hbm, ⟨39, _⟩ => ⟨S4x4096x4096, .f32⟩
  | .hbm, ⟨40, _⟩ => ⟨S_, .f32⟩
  | .hbm, ⟨41, _⟩ => ⟨S4x4096x4096, .f32⟩
  | .hbm, ⟨42, _⟩ => ⟨S4x4096x4096, .f32⟩
  | .hbm, ⟨43, _⟩ => ⟨S_, .f32⟩
  | .hbm, ⟨44, _⟩ => ⟨S4x4096x4096, .f32⟩
  | .hbm, ⟨45, _⟩ => ⟨S4x4096x4096, .f32⟩
  | .hbm, ⟨46, _⟩ => ⟨S4x4096x4096, .f32⟩
  | .hbm, ⟨47, _⟩ => ⟨S_, .f32⟩
  | .hbm, ⟨48, _⟩ => ⟨S4x4096, .f32⟩
  | .hbm, ⟨49, _⟩ => ⟨S4x4096x1, .f32⟩
  | .hbm, ⟨50, _⟩ => ⟨S4x4096x4096, .f32⟩
  | .hbm, ⟨51, _⟩ => ⟨S4x4096x4096, .f32⟩
  | .hbm, ⟨52, _⟩ => ⟨S_, .f32⟩
  | .hbm, ⟨53, _⟩ => ⟨S4x4096, .f32⟩
  | .hbm, ⟨54, _⟩ => ⟨S_, .f32⟩
  | .hbm, ⟨55, _⟩ => ⟨S4, .f32⟩
  | .hbm, ⟨56, _⟩ => ⟨S_, .f32⟩
  | .hbm, ⟨57, _⟩ => ⟨S4, .f32⟩
  | .hbm, ⟨58, _⟩ => ⟨S4, .f32⟩
  | .hbm, ⟨59, _⟩ => ⟨S_, .f32⟩
  | .hbm, ⟨60, _⟩ => ⟨S4, .f32⟩
  | .hbm, ⟨61, _⟩ => ⟨S4, .f32⟩
  | .hbm, ⟨62, _⟩ => ⟨S4, .f32⟩
  | .hbm, ⟨63, _⟩ => ⟨S4, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | _, _ => ⟨S4x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_call0_v2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_call1_v2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_cst_9 : Ref sig .tc := ⟨.hbm, 56, rfl⟩
abbrev main_v36 : Ref sig .tc := ⟨.hbm, 57, rfl⟩
abbrev main_v37 : Ref sig .tc := ⟨.hbm, 58, rfl⟩
abbrev main_cst_10 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_11 : Ref sig .tc := ⟨.hbm, 64, rfl⟩
abbrev main_v42 : Ref sig .tc := ⟨.hbm, 65, rfl⟩
abbrev main_cst_12 : Ref sig .tc := ⟨.hbm, 66, rfl⟩
abbrev main_v43 : Ref sig .tc := ⟨.hbm, 67, rfl⟩

abbrev nD : Nat := 1
abbrev τ : Topo := Topo.v7x

variable {F : FTy → Type} [FloatOps F]

class Facts₀ : Prop where
  reducesTo_S4x256x64x64_S256_d0_2_3 : S4x256x64x64.ReducesTo [0, 2, 3] S256
  h_S_ : 0 < S_.numel
  bcast_S_S256 : S_.BroadcastsInDim S256 (![] : Fin 0 → Fin S256.rank)
  shapeCasts_S256_S1x256x1x1 : S256.ShapeCasts S1x256x1x1
  bcast_S1x256x1x1_S4x256x64x64_0_1_2_3 : S1x256x1x1.BroadcastsInDim S4x256x64x64 (![0, 1, 2, 3] : Fin 4 → Fin S4x256x64x64.rank)
  reducesTo_S4x256x64x64_S4x64x64_d1 : S4x256x64x64.ReducesTo [1] S4x64x64
  bcast_S4x64x64_S4x1x64x64_0_2_3 : S4x64x64.BroadcastsInDim S4x1x64x64 (![0, 2, 3] : Fin 3 → Fin S4x1x64x64.rank)
  bcast_S4x1x64x64_S4x256x64x64_0_1_2_3 : S4x1x64x64.BroadcastsInDim S4x256x64x64 (![0, 1, 2, 3] : Fin 4 → Fin S4x256x64x64.rank)
  shapeCasts_S4x256x64x64_S4x256x4096 : S4x256x64x64.ShapeCasts S4x256x4096
  bcast_S_S4x4096x4096 : S_.BroadcastsInDim S4x4096x4096 (![] : Fin 0 → Fin S4x4096x4096.rank)
  reducesTo_S4x4096x4096_S4x4096_d2 : S4x4096x4096.ReducesTo [2] S4x4096
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x4096_0_1_2 : S4x4096x1.BroadcastsInDim S4x4096x4096 (![0, 1, 2] : Fin 3 → Fin S4x4096x4096.rank)
  reducesTo_S4x4096x4096_S4x4096_d1 : S4x4096x4096.ReducesTo [1] S4x4096
  reducesTo_S4x4096_S4_d1 : S4x4096.ReducesTo [1] S4
  bcast_S_S4 : S_.BroadcastsInDim S4 (![] : Fin 0 → Fin S4.rank)
  reducesTo_S4_S_d0 : S4.ReducesTo [0] S_
  dot_S4x256x4096_S4x256x4096_S4x4096x4096_1_1_2_2_0_0_wf : DotDims.WF S4x256x4096 S4x256x4096 S4x4096x4096 [1] [1] [2] [2] [0] [0]

variable [Facts₀]

def dot_S4x256x4096_S4x256x4096_S4x4096x4096_1_1_2_2_0_0 : DotDims S4x256x4096 S4x256x4096 S4x4096x4096 where
  lhsContracting := [1]
  rhsContracting := [1]
  lhsNonContracting := [2]
  rhsNonContracting := [2]
  lhsBatch := [0]
  rhsBatch := [0]
  wf := dot_S4x256x4096_S4x256x4096_S4x4096x4096_1_1_2_2_0_0_wf

class Facts : Prop extends Facts₀ where

variable [Facts]
-- ==== Proof.KRun.lean ====
/-
  The kernel program's run, with its result named.

  The program is a stretch of host operations, two pipelined regions, and a second stretch of host operations.  Its
  run leaves every buffer at the fold of these four segments over the launch memory: the first stretch's operations,
  each region's arrays at what its write-backs leave, the second stretch's operations.  Every weakly fair execution
  terminates, nothing faulting, with the result buffer at that fold's value and the two argument arrays as launched.
-/
import proofs.«172719_j39960375722309_2_alg».proof.Proof.Gen.KernelIdeal.Frame

set_option maxRecDepth 16384

noncomputable section

namespace Cert.Ctx.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting; the
    result buffer ends at the fold's value and the argument arrays end as launched. -/
theorem run_value : θ_run defs (onTc (τ := τ) (main (F := F))) ⟨m, fun _ => 0, ρ⟩ (fun r => ∀ c : Dev nD,
      r.2.mem ((c.tc : Thread nD τ).loc main_v17) = W4 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v17 (by decide)),
       (h c _ (mem_uc main_arg0 (by decide))).trans (W4_main_arg0 m ρ c),
       (h c _ (mem_uc main_arg1 (by decide))).trans (W4_main_arg1 m ρ c)⟩)

end Cert.Ctx.KRun

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.LibRowColOps.lean ====
/-
  More two-dimensional vector operations read at one index, on the extended reals.

  Companions of the row operations: a `[1, b]` row repeated down a first axis, the one-row slice of an
  `[n, b]` vector at a given row, a `[1, a, b]` block viewed as `[a, b]`, and a sum along the FIRST axis
  (a column's total). Each only moves coordinates, or is the finite sum over the axis summed away.
-/
import Idealize.ShloMosaic.PureOps.Ideal.Laws
import Idealize.ShloMosaic.Lib.ValueIdx
import Idealize.ShloMosaic.Lib.Pipeline.Value

noncomputable section

namespace Cert.RowColOps

open Idealize.ShloMosaic Idealize.ShloMosaic.ValueIdx

section Layout

variable {α : Type} {a b n : Nat}

/-- A `[1, b]` row repeated along a first axis reads, at (i, j), the row at (0, j). -/
theorem rowSpread_apply (x : (⟨2, ![1, b]⟩ : Shape).Idx → α) (h : (⟨2, ![1, b]⟩ : Shape).Broadcasts ⟨2, ![a, b]⟩)
    (i : Fin a) (j : Fin b) : broadcastTo ⟨2, ![a, b]⟩ x h (ix2 i j) = x (ix2 (0 : Fin 1) j) :=
  broadcastTo_apply x h _ _ (fun c => by
    match c with
    | ⟨0, _⟩ => show 0 = if (1 : Nat) = 1 then 0 else i.val; rw [if_pos rfl]
    | ⟨1, _⟩ =>
      show j.val = if b = 1 then 0 else j.val
      split
      · next h1 => have := j.isLt; omega
      · rfl)

/-- The one-row slice at row `c` of an `[n, b]` vector reads, at (0, j), the vector at (c, j). -/
theorem sliceRow_apply (x : (⟨2, ![n, b]⟩ : Shape).Idx → α) (c : Fin n) (off : Fin 2 → Nat)
    (hoff : off = ![c.val, 0]) (h : (⟨2, ![n, b]⟩ : Shape).Slices off ⟨2, ![1, b]⟩) (u : Fin 1) (j : Fin b) :
    extractStridedSlice ⟨2, ![1, b]⟩ off x h (ix2 u j) = x (ix2 c j) := by
  subst hoff
  refine extractStridedSlice_apply _ x h _ _ (fun d => ?_)
  have hu : u.val = 0 := by omega
  match d with
  | ⟨0, _⟩ => show c.val = c.val + u.val; omega
  | ⟨1, _⟩ => show j.val = 0 + j.val; omega

/-- A `[1, a, b]` block viewed as `[a, b]` reads, at (i, j), the block at (0, i, j). -/
theorem dropLead_apply (x : (⟨3, ![1, a, b]⟩ : Shape).Idx → α)
    (h : (⟨3, ![1, a, b]⟩ : Shape).ShapeCasts ⟨2, ![a, b]⟩) (i : Fin a) (j : Fin b) :
    shapeCast ⟨2, ![a, b]⟩ x h (ix2 i j) = x (ix3 (0 : Fin 1) i j) :=
  shapeCast_apply x h _ _ (by
    rw [Shape.rowMajor_val_three, Shape.rowMajor_val_two]
    show ((0 : Nat) * a + i.val) * b + j.val = i.val * b + j.val
    rw [Nat.zero_mul, Nat.zero_add])

end Layout

section Columns

variable {a b : Nat} {φ : FTy}

/-- The index over column `j` with first coordinate `k`. -/
theorem lift_col (h : (⟨2, ![a, b]⟩ : Shape).Reduces [0] ⟨1, ![b]⟩) (j : Fin b) (k : Fin a) :
    h.lift (ix1 j) k = ix2 k j :=
  funext fun c => Fin.ext (by
    show h.liftVal (ix1 j) k.val c = (ix2 k j c).val
    unfold Shape.Reduces.liftVal
    match c with
    | ⟨0, _⟩ => rfl
    | ⟨1, _⟩ => rfl)

/-- A sum along the first axis, at column `j`: the sum of that column. -/
theorem colSum_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) := by
  rw [Ideal.multiReduction_add_single]
  exact Finset.sum_congr rfl fun k _ => congrArg src (lift_col h j k)

end Columns

end Cert.RowColOps

end
-- ==== Proof.KPay0.lean ====
/-
  What the normalising kernel stores, read at one entry.

  A block holds the channel vectors of 2048 consecutive positions of one batch entry, as a `[1, 256, 2048]` array,
  and the kernel is handed the per-channel mean as a `[256, 1]` column.  It subtracts the mean from every channel
  vector, sums the squares of the differences over the channels (down each column of the `[256, 2048]` view), and
  multiplies every difference by the reciprocal square root of its column's sum.  At channel `c` and column `l` the
  stored entry is therefore `(v c l - μ c) · rsqrt (∑ k, (v k l - μ k)²)`; a change of float format is the
  identity on extended reals.  Both outputs are this one function, of the first and of the second input block.
-/
import proofs.«172719_j39960375722309_2_alg».proof.Proof.Gen.KernelIdeal.Skeleton
import proofs.«172719_j39960375722309_2_alg».proof.Proof.LibRowOps
import proofs.«172719_j39960375722309_2_alg».proof.Proof.LibRowColOps
import Idealize.ShloMosaic.Lib.ValueLayout
import Idealize.ShloMosaic.Lib.ValueIdx
import Idealize.ShloMosaic.PureOps.Ideal.Laws

noncomputable section

namespace Cert.Ctx.K0

open Idealize.ShloMosaic Idealize.ShloMosaic.ValueIdx Cert.KernelIdeal Cert.KernelIdeal.Gen

/-- A block entry minus its channel's mean. -/
def dev (v : Vec Ideal S1x256x2048 .f32) (m : Vec Ideal S256x1 .f32) (c : Fin 256) (l : Fin 2048) : EReal :=
  v (ix3 (0 : Fin 1) c l) - m (ix2 c (0 : Fin 1))

/-- The normalised entry: the difference times the reciprocal root of its column's sum of squared differences. -/
def nrm (v : Vec Ideal S1x256x2048 .f32) (m : Vec Ideal S256x1 .f32) (c : Fin 256) (l : Fin 2048) : EReal :=
  dev v m c l * Ideal.rsqrt (∑ k : Fin 256, dev v m k l * dev v m k l)

/-- The centred `[256, 2048]` view of a block, at an entry. -/
theorem centred_apply (v : Vec Ideal S1x256x2048 .f32) (m : Vec Ideal S256x1 .f32) (c : Fin 256) (l : Fin 2048) :
    subf (shapeCast S256x2048 v shapeCasts_S1x256x2048_S256x2048)
      (broadcastTo S256x2048 (k0_pay1 (F := Ideal) m) broadcasts_S256x1_S256x2048) (ix2 c l) = dev v m c l := by
  rw [subf_apply, Cert.RowColOps.dropLead_apply, Cert.RowOps.spread_apply]
  unfold k0_pay1
  rw [shapeCast_self]
  rfl

/-- The first output's payload at an entry. -/
theorem pay2_apply (v : Vec Ideal S1x256x2048 .f32) (m : Vec Ideal S256x1 .f32) (c : Fin 256) (l : Fin 2048) :
    k0_pay2 (F := Ideal) v m (ix3 (0 : Fin 1) c l) = nrm v m c l := by
  unfold k0_pay2
  rw [shapeCast_ab_1ab_apply, truncf_apply, mulf_apply, centred_apply, Cert.RowColOps.rowSpread_apply]
  show dev v m c l * Ideal.rsqrt (shapeCast S1x2048 _ shapeCasts_S2048_S1x2048 (ix2 (0 : Fin 1) l)) = _
  rw [shapeCast_a_1a_apply]
  unfold nrm
  refine congrArg (fun s => dev v m c l * Ideal.rsqrt s)
    ((Cert.RowColOps.colSum_apply _ _ _ _ _ l).trans (Finset.sum_congr rfl fun k _ => ?_))
  rw [mulf_apply, centred_apply]

/-- The second output's payload is the same function of its block. -/
theorem pay3_apply (v : Vec Ideal S1x256x2048 .f32) (m : Vec Ideal S256x1 .f32) (c : Fin 256) (l : Fin 2048) :
    k0_pay3 (F := Ideal) v m (ix3 (0 : Fin 1) c l) = nrm v m c l :=
  pay2_apply v m c l

end Cert.Ctx.K0

end
-- ==== Proof.KNormArr.lean ====
/-
  The two arrays the normalising kernel leaves.

  The kernel runs over a grid of 4 × 2 points: point `(n, h)` reads, of each `[4, 256, 4096]` input, the block of
  batch entry `n`, all 256 channels, and positions `2048·h … 2048·h + 2047`, reads the whole `[256, 1]` column of
  channel means, and writes back the normalised block to the same place of each output.  The sum of squares that
  normalises the entry at `(n, c, p)` runs over the channels at the same `n` and `p`, which lie in the same block,
  so each output array is one function of its input array and the means: at `(n, c, p)`,
  `(a n c p - μ c) · rsqrt (∑ k, (a n k p - μ k)²)`.  The eight blocks tile the array.
-/
import proofs.«172719_j39960375722309_2_alg».proof.Proof.Gen.KernelIdeal.Frame
import proofs.«172719_j39960375722309_2_alg».proof.Proof.KPay0
import Idealize.ShloMosaic.Lib.Pipeline.Value

set_option maxRecDepth 16384

noncomputable section

namespace Cert.Ctx.K0

open Idealize.ShloMosaic Idealize.ShloMosaic.ValueIdx Idealize.ShloMosaic.TcCoe Idealize.SL.Sem
open Cert.KernelIdeal Cert.KernelIdeal.Gen
open Idealize.ShloMosaic.Pipeline (Dat)

/-- The normalised entry at batch `n`, channel `c`, position `p`, of an array `a` and the column of means `mc`. -/
def nrmAt (a : S4x256x4096.Idx → EReal) (mc : S256x1.Idx → EReal) (n : Fin 4) (c : Fin 256) (p : Fin 4096) : EReal :=
  (a (ix3 n c p) - mc (ix2 c (0 : Fin 1)))
    * Ideal.rsqrt (∑ k : Fin 256, (a (ix3 n k p) - mc (ix2 k (0 : Fin 1))) * (a (ix3 n k p) - mc (ix2 k (0 : Fin 1))))

/-- The normalised array. -/
def nrmArr (a : S4x256x4096.Idx → EReal) (mc : S256x1.Idx → EReal) : S4x256x4096.Idx → EReal :=
  fun i => nrmAt a mc ⟨(i 0).val, (i 0).isLt⟩ ⟨(i 1).val, (i 1).isLt⟩ ⟨(i 2).val, (i 2).isLt⟩

theorem nrmArr_ix3 (a : S4x256x4096.Idx → EReal) (mc : S256x1.Idx → EReal) (n : Fin 4) (c : Fin 256) (p : Fin 4096) :
    nrmArr a mc (ix3 n c p) = nrmAt a mc n c p := rfl

theorem hz3 : (![0, 0, 0] : Fin 3 → Nat) = fun _ => 0 := funext fun a => by fin_cases a <;> rfl
theorem hz2 : (![0, 0] : Fin 2 → Nat) = fun _ => 0 := funext fun a => by fin_cases a <;> rfl

variable (V : (c : Dev nD) → (b : Ref sig .tc) → Buf (Elt Ideal) ((c : Thread nD τ).loc b))

/-- The printed index maps of the input block read and of output window 3, decided over the grid: both move with
    the batch entry on the first axis and with the half of the positions on the last, the channel axis whole; the
    mean's window is the whole column. -/
theorem idx_facts3 : ∀ t : Fin cfg0.N, win0_0.index t (0 : Fin 3) = win0_3.index t (0 : Fin 3)
    ∧ win0_0.index t (1 : Fin 3) = 0 ∧ win0_3.index t (1 : Fin 3) = 0
    ∧ win0_0.index t (2 : Fin 3) = win0_3.index t (2 : Fin 3)
    ∧ win0_2.index t (0 : Fin 2) = 0 ∧ win0_2.index t (1 : Fin 2) = 0
    ∧ win0_3.index t (0 : Fin 3) ≤ 3 ∧ win0_3.index t (2 : Fin 3) ≤ 1 :=
  (by decide +kernel : ∀ t : Fin grid0.N, _)

/-- Every pair of a batch entry and a half of the positions is some point's block. -/
theorem idx_onto3 : ∀ (q0 : Fin 4) (q2 : Fin 2), ∃ t : Fin cfg0.N, win0_3.index t = ![q0.val, 0, q2.val] :=
  (by decide +kernel : ∀ (q0 : Fin 4) (q2 : Fin 2), ∃ t : Fin grid0.N, win0_3.index t = ![q0.val, 0, q2.val])

/-- What point `t` writes back to output 3 is block `t` of the normalised array. -/
theorem flushed3_eq (c : Dev nD) (t : Fin cfg0.N) :
    (dat0 V c).flushed 3 t = ((cfg0.win 3).blk t).view.read (Elt Ideal) (nrmArr (V c main_v4) (V c main_v3)) := by
  show (cfg0.win 3).cut (grid0.coords t) ((dat0 V c).after 3 t) = _
  rw [after0_3]
  unfold out0_3
  rw [View.canon_unit_zero hz3]
  simp only [View.ld_unit_zero (S := S1x256x2048) hz3, View.ld_unit_zero (S := S256x1) hz2]
  obtain ⟨e0, e1, e2, e3, e4, e5, e6, e7⟩ := idx_facts3 t
  funext j
  revert j
  show ∀ j : S1x256x2048.Idx, k0_pay2 (F := Ideal) (iblk0 V c 0 t) (iblk0 V c 2 t) j
      = nrmArr (V c main_v4) (V c main_v3) (((cfg0.win 3).blk t).view.emb j)
  intro j
  obtain ⟨u, k, l, rfl⟩ : ∃ (u : Fin 1) (k : Fin 256) (l : Fin 2048), j = ix3 u k l := ⟨j 0, j 1, j 2, eq_ix3 j⟩
  obtain rfl : u = 0 := Subsingleton.elim _ _
  refine (pay2_apply (iblk0 V c 0 t) (iblk0 V c 2 t) k l).trans ?_
  have hblk : ∀ k' : Fin 256, iblk0 V c 0 t (ix3 (0 : Fin 1) k' l)
      = V c main_v4 (ix3 (⟨win0_3.index t (0 : Fin 3), by omega⟩ : Fin 4) k'
          (⟨win0_3.index t (2 : Fin 3) * 2048 + l.val, by have := l.isLt; omega⟩ : Fin 4096)) := by
    intro k'
    show V c main_v4 (((cfg0.win 0).blk t).view.emb (ix3 (0 : Fin 1) k' l)) = _
    refine congrArg (V c main_v4) (funext fun a => Fin.ext ?_)
    match a with
    | ⟨0, _⟩ => show win0_0.index t (0 : Fin 3) * 1 + 1 * 0 = win0_3.index t (0 : Fin 3); omega
    | ⟨1, _⟩ => show win0_0.index t (1 : Fin 3) * 256 + 1 * k'.val = k'.val; omega
    | ⟨2, _⟩ => show win0_0.index t (2 : Fin 3) * 2048 + 1 * l.val = win0_3.index t (2 : Fin 3) * 2048 + l.val; omega
  have hmu : ∀ k' : Fin 256, iblk0 V c 2 t (ix2 k' (0 : Fin 1)) = V c main_v3 (ix2 k' (0 : Fin 1)) := by
    intro k'
    show V c main_v3 (((cfg0.win 2).blk t).view.emb (ix2 k' (0 : Fin 1))) = _
    refine congrArg (V c main_v3) (funext fun a => Fin.ext ?_)
    match a with
    | ⟨0, _⟩ => show win0_2.index t (0 : Fin 2) * 256 + 1 * k'.val = k'.val; omega
    | ⟨1, _⟩ => show win0_2.index t (1 : Fin 2) * 1 + 1 * 0 = 0; omega
  have hemb : ((cfg0.win 3).blk t).view.emb (ix3 (0 : Fin 1) k l)
      = ix3 (⟨win0_3.index t (0 : Fin 3), by omega⟩ : Fin 4) k
          (⟨win0_3.index t (2 : Fin 3) * 2048 + l.val, by have := l.isLt; omega⟩ : Fin 4096) := by
    refine funext fun a => Fin.ext ?_
    match a with
    | ⟨0, _⟩ => show win0_3.index t (0 : Fin 3) * 1 + 1 * 0 = win0_3.index t (0 : Fin 3); omega
    | ⟨1, _⟩ => show win0_3.index t (1 : Fin 3) * 256 + 1 * k.val = k.val; omega
    | ⟨2, _⟩ => show win0_3.index t (2 : Fin 3) * 2048 + 1 * l.val = win0_3.index t (2 : Fin 3) * 2048 + l.val; omega
  rw [hemb, nrmArr_ix3]
  unfold K0.nrm K0.dev nrmAt
  simp only [hblk, hmu]

/-- An index of the array is in point `t`'s block iff each coordinate is in the block's range on its axis. -/
theorem mem_blk3 (t : Fin cfg0.N) (i : S4x256x4096.Idx) :
    i ∈ ((cfg0.win 3).blk t).view.set ↔ ∀ a : Fin 3, win0_3.index t a * S1x256x2048.size a ≤ (i a).val
      ∧ (i a).val < win0_3.index t a * S1x256x2048.size a + S1x256x2048.size a := by
  show i ∈ ((View.whole main_v6_0).slice (win0_3.rect t)).set ↔ _
  rw [View.set_slice_whole, Rect.mem_set_unit]
  exact Iff.rfl

/-- Every index of the array lies in some point's block. -/
theorem cover3 (i : S4x256x4096.Idx) :
    ∃ t : Fin cfg0.N, (cfg0.win 3).flush t = true ∧ i ∈ ((cfg0.win 3).blk t).view.set := by
  have hi0 : (i 0).val < 4 := (i 0).isLt
  have hi1 : (i 1).val < 256 := (i 1).isLt
  have hi2 : (i 2).val < 4096 := (i 2).isLt
  obtain ⟨t, ht⟩ := idx_onto3 ⟨(i 0).val, hi0⟩ ⟨(i 2).val / 2048, by omega⟩
  have q0 : win0_3.index t (0 : Fin 3) = (i 0).val := congrFun ht 0
  have q1 : win0_3.index t (1 : Fin 3) = 0 := congrFun ht 1
  have q2 : win0_3.index t (2 : Fin 3) = (i 2).val / 2048 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 2048 ≤ (i 2).val ∧ (i 2).val < win0_3.index t (2 : Fin 3) * 2048 + 2048; omega

/-- Output 3's array after the region: the normalised array of its input. -/
theorem final3 (c : Dev nD) : (dat0 V c).arrAt 3 cfg0.N = nrmArr (V c main_v4) (V c main_v3) :=
  (dat0 V c).arrAt_eq_of_cover 3 (nrmArr (V c main_v4) (V c main_v3)) (fun t _ => flushed3_eq V c t) cover3

/-- The printed index maps of the input block read and of output window 4, decided over the grid: both move with
    the batch entry on the first axis and with the half of the positions on the last, the channel axis whole; the
    mean's window is the whole column. -/
theorem idx_facts4 : ∀ t : Fin cfg0.N, win0_1.index t (0 : Fin 3) = win0_4.index t (0 : Fin 3)
    ∧ win0_1.index t (1 : Fin 3) = 0 ∧ win0_4.index t (1 : Fin 3) = 0
    ∧ win0_1.index t (2 : Fin 3) = win0_4.index t (2 : Fin 3)
    ∧ win0_2.index t (0 : Fin 2) = 0 ∧ win0_2.index t (1 : Fin 2) = 0
    ∧ win0_4.index t (0 : Fin 3) ≤ 3 ∧ win0_4.index t (2 : Fin 3) ≤ 1 :=
  (by decide +kernel : ∀ t : Fin grid0.N, _)

/-- Every pair of a batch entry and a half of the positions is some point's block. -/
theorem idx_onto4 : ∀ (q0 : Fin 4) (q2 : Fin 2), ∃ t : Fin cfg0.N, win0_4.index t = ![q0.val, 0, q2.val] :=
  (by decide +kernel : ∀ (q0 : Fin 4) (q2 : Fin 2), ∃ t : Fin grid0.N, win0_4.index t = ![q0.val, 0, q2.val])

/-- What point `t` writes back to output 4 is block `t` of the normalised array. -/
theorem flushed4_eq (c : Dev nD) (t : Fin cfg0.N) :
    (dat0 V c).flushed 4 t = ((cfg0.win 4).blk t).view.read (Elt Ideal) (nrmArr (V c main_v5) (V c main_v3)) := by
  show (cfg0.win 4).cut (grid0.coords t) ((dat0 V c).after 4 t) = _
  rw [after0_4]
  unfold out0_4
  rw [View.canon_unit_zero hz3]
  simp only [View.ld_unit_zero (S := S1x256x2048) hz3, View.ld_unit_zero (S := S256x1) hz2]
  obtain ⟨e0, e1, e2, e3, e4, e5, e6, e7⟩ := idx_facts4 t
  funext j
  revert j
  show ∀ j : S1x256x2048.Idx, k0_pay3 (F := Ideal) (iblk0 V c 1 t) (iblk0 V c 2 t) j
      = nrmArr (V c main_v5) (V c main_v3) (((cfg0.win 4).blk t).view.emb j)
  intro j
  obtain ⟨u, k, l, rfl⟩ : ∃ (u : Fin 1) (k : Fin 256) (l : Fin 2048), j = ix3 u k l := ⟨j 0, j 1, j 2, eq_ix3 j⟩
  obtain rfl : u = 0 := Subsingleton.elim _ _
  refine (pay3_apply (iblk0 V c 1 t) (iblk0 V c 2 t) k l).trans ?_
  have hblk : ∀ k' : Fin 256, iblk0 V c 1 t (ix3 (0 : Fin 1) k' l)
      = V c main_v5 (ix3 (⟨win0_4.index t (0 : Fin 3), by omega⟩ : Fin 4) k'
          (⟨win0_4.index t (2 : Fin 3) * 2048 + l.val, by have := l.isLt; omega⟩ : Fin 4096)) := by
    intro k'
    show V c main_v5 (((cfg0.win 1).blk t).view.emb (ix3 (0 : Fin 1) k' l)) = _
    refine congrArg (V c main_v5) (funext fun a => Fin.ext ?_)
    match a with
    | ⟨0, _⟩ => show win0_1.index t (0 : Fin 3) * 1 + 1 * 0 = win0_4.index t (0 : Fin 3); omega
    | ⟨1, _⟩ => show win0_1.index t (1 : Fin 3) * 256 + 1 * k'.val = k'.val; omega
    | ⟨2, _⟩ => show win0_1.index t (2 : Fin 3) * 2048 + 1 * l.val = win0_4.index t (2 : Fin 3) * 2048 + l.val; omega
  have hmu : ∀ k' : Fin 256, iblk0 V c 2 t (ix2 k' (0 : Fin 1)) = V c main_v3 (ix2 k' (0 : Fin 1)) := by
    intro k'
    show V c main_v3 (((cfg0.win 2).blk t).view.emb (ix2 k' (0 : Fin 1))) = _
    refine congrArg (V c main_v3) (funext fun a => Fin.ext ?_)
    match a with
    | ⟨0, _⟩ => show win0_2.index t (0 : Fin 2) * 256 + 1 * k'.val = k'.val; omega
    | ⟨1, _⟩ => show win0_2.index t (1 : Fin 2) * 1 + 1 * 0 = 0; omega
  have hemb : ((cfg0.win 4).blk t).view.emb (ix3 (0 : Fin 1) k l)
      = ix3 (⟨win0_4.index t (0 : Fin 3), by omega⟩ : Fin 4) k
          (⟨win0_4.index t (2 : Fin 3) * 2048 + l.val, by have := l.isLt; omega⟩ : Fin 4096) := by
    refine funext fun a => Fin.ext ?_
    match a with
    | ⟨0, _⟩ => show win0_4.index t (0 : Fin 3) * 1 + 1 * 0 = win0_4.index t (0 : Fin 3); omega
    | ⟨1, _⟩ => show win0_4.index t (1 : Fin 3) * 256 + 1 * k.val = k.val; omega
    | ⟨2, _⟩ => show win0_4.index t (2 : Fin 3) * 2048 + 1 * l.val = win0_4.index t (2 : Fin 3) * 2048 + l.val; omega
  rw [hemb, nrmArr_ix3]
  unfold K0.nrm K0.dev nrmAt
  simp only [hblk, hmu]

/-- An index of the array is in point `t`'s block iff each coordinate is in the block's range on its axis. -/
theorem mem_blk4 (t : Fin cfg0.N) (i : S4x256x4096.Idx) :
    i ∈ ((cfg0.win 4).blk t).view.set ↔ ∀ a : Fin 3, win0_4.index t a * S1x256x2048.size a ≤ (i a).val
      ∧ (i a).val < win0_4.index t a * S1x256x2048.size a + S1x256x2048.size a := by
  show i ∈ ((View.whole main_v6_1).slice (win0_4.rect t)).set ↔ _
  rw [View.set_slice_whole, Rect.mem_set_unit]
  exact Iff.rfl

/-- Every index of the array lies in some point's block. -/
theorem cover4 (i : S4x256x4096.Idx) :
    ∃ t : Fin cfg0.N, (cfg0.win 4).flush t = true ∧ i ∈ ((cfg0.win 4).blk t).view.set := by
  have hi0 : (i 0).val < 4 := (i 0).isLt
  have hi1 : (i 1).val < 256 := (i 1).isLt
  have hi2 : (i 2).val < 4096 := (i 2).isLt
  obtain ⟨t, ht⟩ := idx_onto4 ⟨(i 0).val, hi0⟩ ⟨(i 2).val / 2048, by omega⟩
  have q0 : win0_4.index t (0 : Fin 3) = (i 0).val := congrFun ht 0
  have q1 : win0_4.index t (1 : Fin 3) = 0 := congrFun ht 1
  have q2 : win0_4.index t (2 : Fin 3) = (i 2).val / 2048 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 2048 ≤ (i 2).val ∧ (i 2).val < win0_4.index t (2 : Fin 3) * 2048 + 2048; omega

/-- Output 4's array after the region: the normalised array of its input. -/
theorem final4 (c : Dev nD) : (dat0 V c).arrAt 4 cfg0.N = nrmArr (V c main_v5) (V c main_v3) :=
  (dat0 V c).arrAt_eq_of_cover 4 (nrmArr (V c main_v5) (V c main_v3)) (fun t _ => flushed4_eq V c t) cover4

end Cert.Ctx.K0

end
-- ==== Proof.KCases.lean ====
/-
  What each grid point of the contextual kernel leaves in its output block.

  The output block of a batch entry stays in place over that entry's eight grid points and is written back after the
  last.  At the first of the eight the kernel fills the block with `-1`, reads it back, and stores the larger of it
  and the tile's column maxima; at the other seven it stores the larger of what the point before left and the tile's
  column maxima.
-/
import proofs.«172719_j39960375722309_2_alg».proof.Proof.Gen.KernelIdeal.Frame
import Idealize.ShloMosaic.Lib.Pipeline.Value

noncomputable section

namespace Cert.Ctx.K1

open Idealize.ShloMosaic Idealize.ShloMosaic.TcCoe Idealize.SL.Sem
open Cert.KernelIdeal Cert.KernelIdeal.Gen

variable {F : FTy → Type} [FloatOps F]

theorem hz3 : (![0, 0, 0] : Fin 3 → Nat) = fun _ => 0 := funext fun a => by fin_cases a <;> rfl

/-- At the seven later points of a batch entry: the larger of what the point before left and the tile's column
    maxima. -/
theorem out_B (c : Dev nD) (i : grid1.Coords) (a2 : Memref sig .tc .vmem S1x256x512 .bf16) (h2 : a2.IsWhole)
    (a3 : Memref sig .tc .vmem S1x256x4096 .bf16) (h3 : a3.IsWhole) (a4 : Memref sig .tc .vmem S1x1x4096 .f32) (h4 : a4.IsWhole)
    (hc : ¬cond1_0 i) (x0 : Vec F S1x256x512 .bf16) (x1 : Vec F S1x256x4096 .bf16) (xo : Vec F S1x1x4096 .f32) :
    out1_B_2 c i a2 h2 a3 h3 a4 h4 hc x0 x1 xo = k1_pay1 (k1_pay3 x0 x1) xo := by
  unfold out1_B_2
  rw [View.read_writes_eq_canon _ _ _ (cover1_B_2 c i a2 h2 a3 h3 a4 h4 hc x0 x1 xo)]
  unfold kernelRun1_B
  dsimp only
  sl_unfold_words
  rw [View.canon_unit_zero hz3]
  simp only [View.readAt_eq_ld, h2.read_unread, h3.read_unread, h4.read_unread,
    View.ld_unit_zero (S := S1x256x512) hz3, View.ld_unit_zero (S := S1x256x4096) hz3, View.ld_unit_zero (S := S1x1x4096) hz3]

/-- At the first point of a batch entry: the larger of the `-1` block and the tile's column maxima. -/
theorem out_A (c : Dev nD) (i : grid1.Coords) (a2 : Memref sig .tc .vmem S1x256x512 .bf16) (h2 : a2.IsWhole)
    (a3 : Memref sig .tc .vmem S1x256x4096 .bf16) (h3 : a3.IsWhole) (a4 : Memref sig .tc .vmem S1x1x4096 .f32) (h4 : a4.IsWhole)
    (hc : cond1_0 i) (x0 : Vec F S1x256x512 .bf16) (x1 : Vec F S1x256x4096 .bf16) :
    out1_A_2 c i a2 h2 a3 h3 a4 h4 hc x0 x1 = k1_pay1 (k1_pay3 x0 x1) k1_pay2 := by
  unfold out1_A_2
  rw [View.read_writes_eq_canon _ _ _ (cover1_A_2 c i a2 h2 a3 h3 a4 h4 hc x0 x1)]
  unfold kernelRun1_A
  dsimp only
  sl_unfold_words
  rw [View.canon_cons_unit_zero (S := S1x1x4096) hz3, View.readCov_unit_zero (S := S1x1x4096) _ hz3]
  simp only [View.readAt_eq_ld, h2.read_unread, h3.read_unread,
    View.ld_unit_zero (S := S1x256x512) hz3, View.ld_unit_zero (S := S1x256x4096) hz3]

end Cert.Ctx.K1

end
-- ==== Proof.LibDotRead.lean ====
/-
  A contraction over one axis, read at an index, on the extended reals.

  A product of two arrays that contracts ONE axis of each, whatever batch and free axes surround it, is at every result
  index the sum, over the shared axis's coordinate k, of the left operand at an index L k times the right operand at an
  index R k.  The dimension numbers determine L and R: a batch axis or a free axis of an operand reads one coordinate of
  the result index (its position among the result's axes is: the batch axes first, then the left operand's free axes, then
  the right operand's), and the contracted axis reads k.  The lemmas below give each such coordinate as a number, so
  that for literal dimension numbers the two indices L k and R k can be written out by coordinates; the sum itself is the
  kernel's product into a zero accumulator and the host's general product alike.
-/
import Idealize.ShloMosaic.PureOps.Ideal.Laws
import Idealize.ShloMosaic.Lib.ValueIdx

noncomputable section

namespace Cert.DotRead

open Idealize.ShloMosaic Idealize.ShloMosaic.ValueIdx

variable {sl sr so : Shape} (d : DotDims sl sr so)

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

/-- A batch axis of the left operand reads the result index at the axis's place among the batch axes. -/
theorem lhs_batch_val (j : so.Idx) (k : d.contr.Idx) (a : Fin sl.rank) (hb : a ∈ d.lhsBatch)
    (q : Fin so.rank) (hq : d.lhsBatch.idxOf a = q.val) : (d.lhsIdx j k a).val = (j q).val := by
  unfold DotDims.lhsIdx
  rw [dif_pos hb]
  simp only [Fin.val_cast]
  exact val_congr j _ _ _ q.isLt hq

/-- A free axis of the left operand reads the result index after the batch axes. -/
theorem lhs_free_val (j : so.Idx) (k : d.contr.Idx) (a : Fin sl.rank) (hb : a ∉ d.lhsBatch) (hn : a ∈ d.lhsNonContracting)
    (q : Fin so.rank) (hq : d.lhsBatch.length + d.lhsNonContracting.idxOf a = q.val) : (d.lhsIdx j k a).val = (j q).val := by
  unfold DotDims.lhsIdx
  rw [dif_neg hb, dif_pos hn]
  simp only [Fin.val_cast]
  exact val_congr j _ _ _ q.isLt hq

/-- A batch axis of the right operand reads the result index at the axis's place among the batch axes. -/
theorem rhs_batch_val (j : so.Idx) (k : d.contr.Idx) (a : Fin sr.rank) (hb : a ∈ d.rhsBatch)
    (q : Fin so.rank) (hq : d.rhsBatch.idxOf a = q.val) : (d.rhsIdx j k a).val = (j q).val := by
  unfold DotDims.rhsIdx
  rw [dif_pos hb]
  simp only [Fin.val_cast]
  exact val_congr j _ _ _ q.isLt hq

/-- A free axis of the right operand reads the result index after the batch axes and the left operand's free axes. -/
theorem rhs_free_val (j : so.Idx) (k : d.contr.Idx) (a : Fin sr.rank) (hb : a ∉ d.rhsBatch) (hn : a ∈ d.rhsNonContracting)
    (q : Fin so.rank) (hq : d.lhsBatch.length + d.lhsNonContracting.length + d.rhsNonContracting.idxOf a = q.val) :
    (d.rhsIdx j k a).val = (j q).val := by
  unfold DotDims.rhsIdx
  rw [dif_neg hb, dif_pos hn]
  simp only [Fin.val_cast]
  exact val_congr j _ _ _ q.isLt hq

/-- One contracted axis: the contraction shape has one axis … -/
theorem contr_rank_one {cl : Fin sl.rank} (hc : d.lhsContracting = [cl]) : d.contr.rank = 1 := by
  rw [d.rank_contr, hc]; rfl

/-- … of the contracted axis's extent. -/
theorem contr_size_one {cl : Fin sl.rank} (hc : d.lhsContracting = [cl]) :
    d.contr.size ⟨0, by rw [contr_rank_one d hc]; exact Nat.one_pos⟩ = sl.size cl := by
  rw [d.size_contr 0 (by rw [hc]; exact Nat.one_pos)]
  simp only [hc, List.getElem_cons_zero]

section One

variable (K : Nat) (hr : d.contr.rank = 1) (hs : d.contr.size ⟨0, by omega⟩ = K)

/-- The left operand's contracted axis reads the shared coordinate. -/
theorem lhs_contr_val {cl : Fin sl.rank} (hc : d.lhsContracting = [cl]) (j : so.Idx) (k : Fin K) :
    (d.lhsIdx j ((contrEquiv1 d K hr hs).symm k) cl).val = k.val :=
  (d.lhsIdx_val_of_single hc _ _).trans (contrEquiv1_symm_val d K hr hs k)

/-- The right operand's contracted axis reads the shared coordinate. -/
theorem rhs_contr_val {cr : Fin sr.rank} (hc : d.rhsContracting = [cr]) (j : so.Idx) (k : Fin K) :
    (d.rhsIdx j ((contrEquiv1 d K hr hs).symm k) cr).val = k.val :=
  (d.rhsIdx_val_of_single hc _ _).trans (contrEquiv1_symm_val d K hr hs k)

/-- A kernel's product into a zero accumulator: the sum over the shared coordinate. -/
theorem matmul_zero_read {φ₁ φ₂ : FTy} (prec : Option ContractPrecision) (lhs : FVec Ideal sl φ₁) (rhs : FVec Ideal sr φ₂)
    (j : so.Idx) (L : Fin K → sl.Idx) (R : Fin K → sr.Idx)
    (hL : ∀ k, d.lhsIdx j ((contrEquiv1 d K hr hs).symm k) = L k)
    (hR : ∀ k, d.rhsIdx j ((contrEquiv1 d K hr hs).symm k) = R k) :
    FloatOps.matmul d prec lhs rhs (constant so .f32 0x00000000#32) j = ∑ k : Fin K, lhs (L k) * rhs (R k) := by
  rw [Ideal.matmul_constant_zero_apply, ← Equiv.sum_comp (contrEquiv1 d K hr hs).symm]
  exact Finset.sum_congr rfl fun k _ => by rw [hL k, hR k]

/-- The host's general product: the same sum. -/
theorem dotGeneral_read {φ₁ φ₂ : FTy} (prec : Option ContractPrecision) (sched : HostSchedule)
    (lhs : FVec Ideal sl φ₁) (rhs : FVec Ideal sr φ₂)
    (j : so.Idx) (L : Fin K → sl.Idx) (R : Fin K → sr.Idx)
    (hL : ∀ k, d.lhsIdx j ((contrEquiv1 d K hr hs).symm k) = L k)
    (hR : ∀ k, d.rhsIdx j ((contrEquiv1 d K hr hs).symm k) = R k) :
    FloatOps.dotGeneral d prec sched lhs rhs j = ∑ k : Fin K, lhs (L k) * rhs (R k) := by
  rw [Ideal.dotGeneral_apply, ← Equiv.sum_comp (contrEquiv1 d K hr hs).symm]
  exact Finset.sum_congr rfl fun k _ => by rw [hL k, hR k]

end One

end Cert.DotRead

end
-- ==== Proof.Spec.lean ====
/-
  The contextual loss, up to the array of column maxima, in its two spellings.

  Arrays are indexed by a batch `n`, a channel `c` and a position `p`; `X` and `Y` are the two inputs with the
  spatial axes flattened, and `mu c` is the per-channel mean of `Y`, which both programs compute by the same
  operations and which is therefore a parameter here.  Write `x = X - mu`, `y = Y - mu` for the centred arrays and
  `ss z n p = ∑ c, (z n c p)²` for the squared length of the channel vector at a position.

  One spelling divides a centred vector by the root of its squared length, forms the cosines
  `cos n p q = ∑ c, x̂ n c p · ŷ n c q`, the distances `d = 1 - cos`, their row minimum, the weights
  `exp ((1 - d / (dmin + ε)) / ½)`, normalises each row by its total, and takes for each column `q` the maximum over
  the rows `p`.

  The other multiplies by the reciprocal root, clamps the row maximum of the cosines at `1`, writes the exponent as
  the affine function `(2 - 2s) + cos · 2s` of the cosine with `s = 1 / ((1 - cmax) + ε)`, multiplies by the
  reciprocal of the row total, and starts the column maximum from `-1`.

  The two agree wherever every entry is a real number and no centred channel vector vanishes: the unit vectors have
  cosines at most `1` (Cauchy–Schwarz), so the clamp does nothing and the row minimum of `1 - cos` is `1 - cmax`;
  the two exponents are one real number; every weight is a positive real, so every normalised weight is positive
  and the start value `-1` never wins.
-/
import Idealize.ShloMosaic.PureOps.Ideal

noncomputable section

namespace Cert.Ctx

open Idealize.ShloMosaic

variable {N C P : Type} [Fintype C] [Fintype P]

/-- An array with the per-channel mean subtracted. -/
def cen (X : N → C → P → EReal) (mu : C → EReal) (n : N) (c : C) (p : P) : EReal := X n c p - mu c

/-- The squared length of the channel vector at a position. -/
def ss (z : N → C → P → EReal) (n : N) (p : P) : EReal := ∑ c, z n c p * z n c p

/-! ## The spelling with quotients -/

/-- A vector divided by its length. -/
def unitD (z : N → C → P → EReal) (n : N) (c : C) (p : P) : EReal := Ideal.div (z n c p) (Ideal.sqrt (ss z n p))

/-- The cosine of the angle between the vector of `a` at `p` and the vector of `b` at `q`. -/
def cosOf (a b : N → C → P → EReal) (n : N) (p q : P) : EReal := ∑ c, a n c p * b n c q

/-- The smallest distance `1 - cos` in a row. -/
def dminD (cs : N → P → P → EReal) (n : N) (p : P) : EReal := Finset.univ.inf fun q => 1 - cs n p q

/-- The weight `exp ((1 - d / (dmin + ε)) / ½)`. -/
def wD (e h : EReal) (cs : N → P → P → EReal) (n : N) (p q : P) : EReal :=
  Ideal.exp (Ideal.div (1 - Ideal.div (1 - cs n p q) (dminD cs n p + e)) h)

/-- A weight over its row's total. -/
def cxD (e h : EReal) (cs : N → P → P → EReal) (n : N) (p q : P) : EReal :=
  Ideal.div (wD e h cs n p q) (∑ q', wD e h cs n p q')

/-- The column maxima, with quotients throughout. -/
def colMaxD (e h : EReal) (X Y : N → C → P → EReal) (mu : C → EReal) (n : N) (q : P) : EReal :=
  Finset.univ.sup fun p => cxD e h (cosOf (unitD (cen X mu)) (unitD (cen Y mu))) n p q

/-! ## The spelling with reciprocals -/

/-- A vector times the reciprocal of its length. -/
def unitM (z : N → C → P → EReal) (n : N) (c : C) (p : P) : EReal := z n c p * Ideal.rsqrt (ss z n p)

/-- The largest cosine in a row, clamped at `1`. -/
def cmaxM (cs : N → P → P → EReal) (n : N) (p : P) : EReal := min (Finset.univ.sup fun q => cs n p q) 1

/-- The row's scale `1 / ((1 - cmax) + ε)`. -/
def sM (e : EReal) (cs : N → P → P → EReal) (n : N) (p : P) : EReal := Ideal.div 1 ((1 - cmaxM cs n p) + e)

/-- The weight `exp ((2 - 2s) + cos · 2s)`. -/
def wM (e : EReal) (cs : N → P → P → EReal) (n : N) (p q : P) : EReal :=
  Ideal.exp ((2 - 2 * sM e cs n p) + cs n p q * (2 * sM e cs n p))

/-- A weight times the reciprocal of its row's total. -/
def cxM (e : EReal) (cs : N → P → P → EReal) (n : N) (p q : P) : EReal :=
  wM e cs n p q * Ideal.div 1 (∑ q', wM e cs n p q')

/-- The column maxima started from `-1`, with reciprocals throughout. -/
def colMaxM (e : EReal) (X Y : N → C → P → EReal) (mu : C → EReal) (n : N) (q : P) : EReal :=
  max (-1) (Finset.univ.sup fun p => cxM e (cosOf (unitM (cen X mu)) (unitM (cen Y mu))) n p q)

end Cert.Ctx

end
-- ==== Proof.Shared.lean ====
/-
  What the two programs have in common, stated once.

  Both programs flatten the two spatial axes of an input into one axis of 4096 positions (`p = 64·h + w`), both
  subtract the same per-channel mean of the second input — its total over batch and positions divided by their
  number, `4 · 64 · 64 = 16384` —, and both finish from the `[4, 4096]` array of column maxima by the same
  operations: the mean over positions, plus `ε`, minus the logarithm, the mean over the batch.  They are written
  here over literal shapes, the shape relations as arguments (any proof of a relation serves), so that each
  program's own operations are these by unfolding.

  The float words the programs spell denote: `0x3F800000` one, `0x40000000` two, `0xBF800000` minus one,
  `0x3F000000` one half, `0x7F800000` and `0xFF800000` the two infinities, and `0x3727C5AC`, the float nearest
  to `1e-5`, a positive real `ε`.
-/
import Idealize.ShloMosaic.PureOps
import Idealize.ShloMosaic.PureOps.Ideal
import Idealize.ShloMosaic.Lib.StableHlo
import Idealize.ShloMosaic.Lib.ValueIdx
import proofs.«172719_j39960375722309_2_alg».proof.Proof.Spec

noncomputable section

namespace Cert.Ctx

open Idealize.ShloMosaic Idealize.ShloMosaic.ValueIdx

abbrev SIn : Shape := ⟨4, ![4, 256, 64, 64]⟩
abbrev SCh : Shape := ⟨1, ![256]⟩
abbrev S0 : Shape := ⟨0, ![]⟩
abbrev SOut : Shape := ⟨2, ![4, 4096]⟩
abbrev SB : Shape := ⟨1, ![4]⟩

/-- An input with its two spatial axes flattened into one: position `p` is row `p / 64`, column `p % 64`. -/
def flat (x : FVec Ideal SIn .f32) (n : Fin 4) (c : Fin 256) (p : Fin 4096) : EReal :=
  x (ix4 n c (⟨p.val / 64, by have := p.isLt; omega⟩ : Fin 64) (⟨p.val % 64, by have := p.isLt; omega⟩ : Fin 64))

/-- The per-channel mean as the host computes it: the total over batch and positions, divided by their number. -/
def muArr (hred : SIn.ReducesTo [0, 2, 3] SCh) (h0 : 0 < S0.numel) (hb : S0.BroadcastsInDim SCh (![] : Fin 0 → Fin SCh.rank))
    (y : FVec Ideal SIn .f32) : FVec Ideal SCh .f32 :=
  Host.divf (Host.reduceAdd y (constant S0 .f32 0x00000000#32) hred h0)
    (broadcastInDim SCh ![] hb (constant S0 .f32 0x46800000#32))

/-- The per-channel mean by its channel. -/
def mu (hred : SIn.ReducesTo [0, 2, 3] SCh) (h0 : 0 < S0.numel) (hb : S0.BroadcastsInDim SCh (![] : Fin 0 → Fin SCh.rank))
    (y : FVec Ideal SIn .f32) (c : Fin 256) : EReal := muArr hred h0 hb y (ix1 c)

/-- From the column maxima to the loss: the mean over positions, plus `ε`, minus the logarithm, the mean over the
    batch. -/
def tail (hr1 : SOut.ReducesTo [1] SB) (hb4 : S0.BroadcastsInDim SB (![] : Fin 0 → Fin SB.rank)) (hr0 : SB.ReducesTo [0] S0)
    (h0 : 0 < S0.numel) (v : FVec Ideal SOut .f32) : FVec Ideal S0 .f32 :=
  Host.divf
    (Host.reduceAdd
      (Host.negf (Host.log (addf
        (Host.divf (Host.reduceAdd v (constant S0 .f32 0x00000000#32) hr1 h0) (broadcastInDim SB ![] hb4 (constant S0 .f32 0x45800000#32)))
        (broadcastInDim SB ![] hb4 (constant S0 .f32 0x3727C5AC#32)))))
      (constant S0 .f32 0x00000000#32) hr0 h0)
    (constant S0 .f32 0x40800000#32)

/-! ## The float words -/

/-- `ε`: the float nearest to `1e-5`. -/
def E : EReal := Ideal.ofBits .f32 0x3727C5AC#32
/-- One half. -/
def H : EReal := Ideal.ofBits .f32 0x3F000000#32

theorem ofBits_one : Ideal.ofBits .f32 0x3F800000#32 = 1 := by
  simp [Ideal.ofBits, Ideal.ieee, -EReal.coe_mul]; norm_num
theorem ofBits_two : Ideal.ofBits .f32 0x40000000#32 = 2 := by
  have h : Ideal.ofBits .f32 0x40000000#32 = ((2 : ℝ) : EReal) := by
    simp [Ideal.ofBits, Ideal.ieee, -EReal.coe_mul]; norm_num
  rw [h]; norm_cast
theorem ofBits_neg_one : Ideal.ofBits .f32 0xBF800000#32 = -1 := by
  simp [Ideal.ofBits, Ideal.ieee, -EReal.coe_mul]; norm_num
theorem ofBits_top : Ideal.ofBits .f32 0x7F800000#32 = ⊤ := by
  simp [Ideal.ofBits, Ideal.ieee]
theorem ofBits_bot : Ideal.ofBits .f32 0xFF800000#32 = ⊥ := by
  simp [Ideal.ofBits, Ideal.ieee]
theorem H_eq : H = ((1 / 2 : ℝ) : EReal) := by
  unfold H; simp [Ideal.ofBits, Ideal.ieee, -EReal.coe_mul]; norm_num
theorem E_pos : ∃ ε : ℝ, 0 < ε ∧ E = (ε : EReal) := by
  unfold E
  refine ⟨_, ?_, by simp [Ideal.ofBits, Ideal.ieee, -EReal.coe_mul]; rfl⟩
  norm_num

end Cert.Ctx

end
-- ==== Proof.KPay1.lean ====
/-
  What the contextual kernel computes from one tile, read at one entry.

  A grid point holds the normalised channel vectors of 512 consecutive positions `r` of one input (a
  `[1, 256, 512]` block) and of all 4096 positions `q` of the other (a `[1, 256, 4096]` block).  It forms the
  cosines `cos r q = ∑ k, a k r · b k q`, and for each row `r`, from the row's cosines alone: the row maximum
  clamped at `1`, the scale `s = 1 / ((1 - cmax) + ε)`, the weights `exp ((2 - 2s) + cos · 2s)`, and each weight
  times the reciprocal of the row's total.  What it hands on is, for each column `q`, the maximum of these over
  the tile's 512 rows.  The running maximum then takes the larger of what the output block held and this.
-/
import proofs.«172719_j39960375722309_2_alg».proof.Proof.Gen.KernelIdeal.Skeleton
import proofs.«172719_j39960375722309_2_alg».proof.Proof.LibRowOps
import proofs.«172719_j39960375722309_2_alg».proof.Proof.LibRowColOps
import proofs.«172719_j39960375722309_2_alg».proof.Proof.LibDotRead
import proofs.«172719_j39960375722309_2_alg».proof.Proof.Shared
import Idealize.ShloMosaic.Lib.ValueLayout
import Idealize.ShloMosaic.Lib.ValueIdx
import Idealize.ShloMosaic.PureOps.Ideal.Laws

noncomputable section

namespace Cert.Ctx.K1

open Idealize.ShloMosaic Idealize.ShloMosaic.ValueIdx Cert.KernelIdeal Cert.KernelIdeal.Gen

/-- The cosine of tile row `r` against column `q`. -/
def cosT (a : FVec Ideal S1x256x512 .bf16) (b : FVec Ideal S1x256x4096 .bf16) (r : Fin 512) (q : Fin 4096) : EReal :=
  ∑ k : Fin 256, a (ix3 (0 : Fin 1) k r) * b (ix3 (0 : Fin 1) k q)

/-! ## One row, from its cosines -/

/-- The row maximum clamped at `1`. -/
def rcmax (cr : Fin 4096 → EReal) : EReal := min (Finset.univ.sup fun q => cr q) 1
/-- The row's scale. -/
def rs (cr : Fin 4096 → EReal) : EReal := Ideal.div 1 ((1 - rcmax cr) + E)
/-- A weight of the row. -/
def rw' (cr : Fin 4096 → EReal) (q : Fin 4096) : EReal := Ideal.exp ((2 - 2 * rs cr) + cr q * (2 * rs cr))
/-- A weight times the reciprocal of the row's total. -/
def rcx (cr : Fin 4096 → EReal) (q : Fin 4096) : EReal := rw' cr q * Ideal.div 1 (∑ q', rw' cr q')

/-! ## The operations at an entry -/

/-- The product into a zero accumulator contracts the channel axis of both blocks. -/
theorem cos_apply (a : FVec Ideal S1x256x512 .bf16) (b : FVec Ideal S1x256x4096 .bf16) (r : Fin 512) (q : Fin 4096) :
    matmul (F := Ideal) dot_S256x512_S256x4096_S512x4096_0_0_1_1_n_n none
      (shapeCast S256x512 a shapeCasts_S1x256x512_S256x512) (shapeCast S256x4096 b shapeCasts_S1x256x4096_S256x4096)
      (constant S512x4096 .f32 0x00000000#32) (ix2 r q) = cosT a b r q := by
  refine (Cert.DotRead.matmul_zero_read dot_S256x512_S256x4096_S512x4096_0_0_1_1_n_n 256 rfl rfl none _ _ (ix2 r q)
    (fun k => ix2 k r) (fun k => ix2 k q) (fun k => ?_) (fun k => ?_)).trans ?_
  · refine funext fun x => Fin.ext ?_
    match x with
    | ⟨0, _⟩ => exact Cert.DotRead.lhs_contr_val dot_S256x512_S256x4096_S512x4096_0_0_1_1_n_n 256 rfl rfl (cl := 0) rfl (ix2 r q) k
    | ⟨1, _⟩ => exact Cert.DotRead.lhs_free_val dot_S256x512_S256x4096_S512x4096_0_0_1_1_n_n (ix2 r q) _ 1 (by decide) (by decide) 0 (by decide)
  · refine funext fun x => Fin.ext ?_
    match x with
    | ⟨0, _⟩ => exact Cert.DotRead.rhs_contr_val dot_S256x512_S256x4096_S512x4096_0_0_1_1_n_n 256 rfl rfl (cr := 0) rfl (ix2 r q) k
    | ⟨1, _⟩ => exact Cert.DotRead.rhs_free_val dot_S256x512_S256x4096_S512x4096_0_0_1_1_n_n (ix2 r q) _ 1 (by decide) (by decide) 1 (by decide)
  · exact Finset.sum_congr rfl fun k _ => by rw [Cert.RowColOps.dropLead_apply, Cert.RowColOps.dropLead_apply]

/-- A maximum along the first axis, at column `j`: the fold of `max` down that column. -/
theorem colMax_apply {a b : Nat} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (j : Fin b) :
    multiReduction .maximumf [0] ⟨1, ![b]⟩ src acc h hφ hacc (ix1 j)
      = (Finset.univ : Finset (Fin a)).fold max (Ideal.ofBits φ acc) (fun k => src (ix2 k j)) := by
  rw [Ideal.multiReduction_maximumf_single]
  exact congrArg (Finset.fold max _ · _) (funext fun k => congrArg src (Cert.RowColOps.lift_col h j k))

end Cert.Ctx.K1

end
-- ==== Proof.Tiles.lean ====
/-
  A running maximum over tiles is one supremum.

  A fold of `max` from `⊥` over a finite type is its supremum, and a fold of `min` from `⊤` its infimum.  For an
  array `g` over `4096 = 8 · 512` rows, write `supBelow g m` for the supremum of `g` over the rows below `m`.
  It is `⊥` at `m = 0`, the full supremum at `m = 4096`, and passing from `512 j` to `512 (j + 1)` takes the
  maximum with the supremum over the `j`-th tile of `512` rows: a row below `512 (j + 1)` either lies below
  `512 j` or is `512 j + r` for exactly one `r < 512`.
-/
import Idealize.ShloMosaic.PureOps.Ideal

noncomputable section

namespace Cert.Ctx

/-- The supremum of g over the rows below m. -/
def supBelow (g : Fin 4096 → EReal) (m : ℕ) : EReal := (Finset.univ.filter fun p : Fin 4096 => p.val < m).sup g

/-- A fold of `max` from `⊥` over a finite set is the supremum over it. -/
theorem fold_max_eq_sup' {ι : Type} (s : Finset ι) (f : ι → EReal) : s.fold max ⊥ f = s.sup f := by
  classical
  induction s using Finset.induction_on with
  | empty => simp
  | insert a s ha ih => rw [Finset.fold_insert ha, Finset.sup_insert, ih]

/-- A fold of `min` from `⊤` over a finite set is the infimum over it. -/
theorem fold_min_eq_inf' {ι : Type} (s : Finset ι) (f : ι → EReal) : s.fold min ⊤ f = s.inf f := by
  classical
  induction s using Finset.induction_on with
  | empty => simp
  | insert a s ha ih => rw [Finset.fold_insert ha, Finset.inf_insert, ih]

theorem fold_max_eq_sup {ι : Type} [Fintype ι] (f : ι → EReal) :
    (Finset.univ : Finset ι).fold max ⊥ f = Finset.univ.sup f :=
  fold_max_eq_sup' _ f

theorem fold_min_eq_inf {ι : Type} [Fintype ι] (f : ι → EReal) :
    (Finset.univ : Finset ι).fold min ⊤ f = Finset.univ.inf f :=
  fold_min_eq_inf' _ f

/-- No row lies below `0`. -/
theorem supBelow_zero (g : Fin 4096 → EReal) : supBelow g 0 = ⊥ := by
  unfold supBelow
  rw [Finset.filter_false_of_mem fun p _ => Nat.not_lt_zero p.val, Finset.sup_empty]

/-- Every row lies below `4096`. -/
theorem supBelow_full (g : Fin 4096 → EReal) : supBelow g 4096 = Finset.univ.sup g := by
  unfold supBelow
  rw [Finset.filter_true_of_mem fun p _ => p.isLt]

/-- One more tile: the maximum of what came before and the supremum over the tile. -/
theorem supBelow_tile (g : Fin 4096 → EReal) (j : ℕ) (hj : j < 8) :
    supBelow g (512 * (j + 1)) = max (supBelow g (512 * j)) (Finset.univ.sup fun r : Fin 512 => g ⟨512 * j + r.val, by have := r.isLt; omega⟩) := by
  unfold supBelow
  refine le_antisymm (Finset.sup_le fun p hp => ?_) (max_le (Finset.sup_le fun p hp => ?_) (Finset.sup_le fun r _ => ?_))
  · have hp' : p.val < 512 * (j + 1) := (Finset.mem_filter.mp hp).2
    by_cases h : p.val < 512 * j
    · exact le_max_of_le_left (Finset.le_sup (Finset.mem_filter.mpr ⟨Finset.mem_univ p, h⟩))
    · have hr : p.val - 512 * j < 512 := by omega
      have hpe : p = ⟨512 * j + (⟨p.val - 512 * j, hr⟩ : Fin 512).val, by have := p.isLt; omega⟩ := by
        apply Fin.ext
        show p.val = 512 * j + (p.val - 512 * j)
        omega
      refine le_max_of_le_right ?_
      rw [hpe]
      exact Finset.le_sup (f := fun r : Fin 512 => g ⟨512 * j + r.val, by have := r.isLt; omega⟩)
        (Finset.mem_univ (⟨p.val - 512 * j, hr⟩ : Fin 512))
  · have hp' : p.val < 512 * j := (Finset.mem_filter.mp hp).2
    exact Finset.le_sup (Finset.mem_filter.mpr ⟨Finset.mem_univ p, by omega⟩)
  · have := r.isLt
    exact Finset.le_sup (f := g) (Finset.mem_filter.mpr ⟨Finset.mem_univ _, by show 512 * j + r.val < 512 * (j + 1); omega⟩)

end Cert.Ctx

end
-- ==== Proof.KPay1b.lean ====
/-
  What the contextual kernel hands on from one tile, and what it stores, read at one entry.

  The tile's payload is a function of the `[512, 4096]` array of cosines alone.  Row by row it forms the scale
  `s = 1 / ((1 - cmax) + ε)` from the row maximum clamped at `1`, the weights `exp ((2 - 2s) + cos · 2s)`, each
  weight times the reciprocal of its row's total, and then, column by column, the maximum of these over the 512
  rows.  Each stage is read at an index: a maximum along an axis started from `-∞` is the supremum along it, a sum
  along an axis is the finite sum, and casts and broadcasts only move coordinates.  The stored value is the larger
  of what the output block held and the tile's column maximum; the block is first filled with `-1`.
-/
import proofs.«172719_j39960375722309_2_alg».proof.Proof.KPay1
import proofs.«172719_j39960375722309_2_alg».proof.Proof.Tiles

noncomputable section

namespace Cert.Ctx.K1

open Idealize.ShloMosaic Idealize.ShloMosaic.ValueIdx Cert.KernelIdeal Cert.KernelIdeal.Gen

/-! ## The two stores -/

/-- The running maximum: the larger of what the output block held and the tile's column maximum. -/
theorem pay1_apply (t : FVec Ideal S1x4096 .f32) (o : FVec Ideal S1x1x4096 .f32) (q : Fin 4096) :
    k1_pay1 (F := Ideal) t o (ix3 (0 : Fin 1) (0 : Fin 1) q) = max (o (ix3 (0 : Fin 1) (0 : Fin 1) q)) (t (ix2 (0 : Fin 1) q)) := by
  unfold k1_pay1
  rw [shapeCast_ab_1ab_apply, maximumf_apply, shapeCast_1ab_ab_apply]

/-- The first fill of the output block: `-1` everywhere. -/
theorem pay2_apply (q : Fin 4096) : k1_pay2 (F := Ideal) (ix3 (0 : Fin 1) (0 : Fin 1) q) = -1 := by
  unfold k1_pay2
  rw [shapeCast_ab_1ab_apply, broadcast_apply]
  exact ofBits_neg_one

/-! ## The tile's payload as a function of the cosines -/

section Post

variable (cs : FVec Ideal S512x4096 .f32)

/-- The column of row scales. -/
def kS : FVec Ideal S512x1 .f32 :=
  divf (broadcast S512x1 (Scalar.ofBits .f32 0x3F800000#32 : Ideal .f32))
    (addf
      (subf (broadcast S512x1 (Scalar.ofBits .f32 0x3F800000#32 : Ideal .f32))
        (minimumf
          (shapeCast S512x1 (multiReduction .maximumf [1] S512 cs 0xFF800000#32 reduces_S512x4096_S512 (.inl rfl) rfl)
            shapeCasts_S512_S512x1)
          (broadcast S512x1 (Scalar.ofBits .f32 0x3F800000#32 : Ideal .f32))))
      (broadcast S512x1 (Scalar.ofBits .f32 0x3727C5AC#32 : Ideal .f32)))

/-- The array of weights. -/
def kW : FVec Ideal S512x4096 .f32 :=
  exp (addf
    (broadcastTo S512x4096
      (subf (broadcast S512x1 (Scalar.ofBits .f32 0x40000000#32 : Ideal .f32))
        (mulf (broadcast S512x1 (Scalar.ofBits .f32 0x40000000#32 : Ideal .f32)) (kS cs)))
      broadcasts_S512x1_S512x4096)
    (mulf cs
      (broadcastTo S512x4096 (mulf (broadcast S512x1 (Scalar.ofBits .f32 0x40000000#32 : Ideal .f32)) (kS cs))
        broadcasts_S512x1_S512x4096)))

/-- The array of weights times the reciprocal of their row's total. -/
def kCx : FVec Ideal S512x4096 .f32 :=
  mulf (kW cs)
    (broadcastTo S512x4096
      (divf (broadcast S512x1 (Scalar.ofBits .f32 0x3F800000#32 : Ideal .f32))
        (shapeCast S512x1 (multiReduction .add [1] S512 (kW cs) 0x00000000#32 reduces_S512x4096_S512 (.inl rfl) rfl)
          shapeCasts_S512_S512x1))
      broadcasts_S512x1_S512x4096)

/-- The row of column maxima. -/
def kOut : FVec Ideal S1x4096 .f32 :=
  shapeCast S1x4096 (multiReduction .maximumf [0] S4096 (kCx cs) 0xFF800000#32 reduces_S512x4096_S4096 (.inl rfl) rfl)
    shapeCasts_S4096_S1x4096

end Post

/-- The tile's payload is these stages applied to the product of the two blocks. -/
theorem pay3_eq (a : FVec Ideal S1x256x512 .bf16) (b : FVec Ideal S1x256x4096 .bf16) :
    k1_pay3 (F := Ideal) a b
      = kOut (matmul (F := Ideal) dot_S256x512_S256x4096_S512x4096_0_0_1_1_n_n none
          (shapeCast S256x512 a shapeCasts_S1x256x512_S256x512) (shapeCast S256x4096 b shapeCasts_S1x256x4096_S256x4096)
          (constant S512x4096 .f32 0x00000000#32)) := rfl

/-! ## The stages at an entry -/

section Stages

variable (cs : FVec Ideal S512x4096 .f32)

/-- A float word read as a scalar denotes what the word denotes. -/
theorem sc_ofBits (w : BitVec 32) : (Scalar.ofBits .f32 w : Ideal .f32) = Ideal.ofBits .f32 w := rfl

/-- The exponential of an array, at an entry. -/
theorem exp_apply (x : FVec Ideal S512x4096 .f32) (i : S512x4096.Idx) : exp x i = Ideal.exp (x i) := rfl

/-- The maximum along a row, started from `-∞`, is the row's supremum. -/
theorem rowMax_sup (r : Fin 512) :
    multiReduction .maximumf [1] S512 cs 0xFF800000#32 reduces_S512x4096_S512 (.inl rfl) rfl (ix1 r)
      = Finset.univ.sup fun q : Fin 4096 => cs (ix2 r q) := by
  refine (Cert.RowOps.rowMax_apply _ _ _ _ _ r).trans ?_
  rw [ofBits_bot, fold_max_eq_sup]

/-- The scale of row `r`: one over `(1 - cmax) + ε`, with `cmax` the row's supremum clamped at `1`. -/
theorem kS_apply (r : Fin 512) (u : Fin 1) : kS cs (ix2 r u) = rs (fun q => cs (ix2 r q)) := by
  unfold kS rs rcmax E
  rw [divf_apply, addf_apply, subf_apply, minimumf_apply, broadcast_apply, broadcast_apply,
    Cert.RowOps.column_apply, rowMax_sup, sc_ofBits, sc_ofBits, ofBits_one]

/-- The weight at `(r, q)`: the exponential of `(2 - 2s) + cos · 2s` with `s` the row's scale. -/
theorem kW_apply (r : Fin 512) (q : Fin 4096) : kW cs (ix2 r q) = rw' (fun q => cs (ix2 r q)) q := by
  unfold kW rw'
  rw [exp_apply, addf_apply, Cert.RowOps.spread_apply, subf_apply, mulf_apply, mulf_apply, Cert.RowOps.spread_apply,
    mulf_apply, broadcast_apply, kS_apply, sc_ofBits, ofBits_two]

/-- The normalised weight at `(r, q)`: the weight times the reciprocal of the row's total. -/
theorem kCx_apply (r : Fin 512) (q : Fin 4096) : kCx cs (ix2 r q) = rcx (fun q => cs (ix2 r q)) q := by
  have hsum : multiReduction .add [1] S512 (kW cs) 0x00000000#32 reduces_S512x4096_S512 (.inl rfl) rfl (ix1 r)
      = ∑ q' : Fin 4096, rw' (fun q => cs (ix2 r q)) q' :=
    (Cert.RowOps.rowSum_apply _ _ _ _ _ r).trans (Finset.sum_congr rfl fun k _ => kW_apply cs r k)
  unfold kCx rcx
  rw [mulf_apply, kW_apply, Cert.RowOps.spread_apply, divf_apply, broadcast_apply, Cert.RowOps.column_apply, hsum,
    sc_ofBits, ofBits_one]

/-- The column maximum at `q`, started from `-∞`: the supremum over the tile's rows of the normalised weights. -/
theorem kOut_apply (q : Fin 4096) :
    kOut cs (ix2 (0 : Fin 1) q) = Finset.univ.sup fun r : Fin 512 => rcx (fun q => cs (ix2 r q)) q := by
  unfold kOut
  rw [shapeCast_a_1a_apply]
  refine (colMax_apply _ _ _ _ _ q).trans ?_
  rw [ofBits_bot, fold_max_eq_sup]
  exact congrArg (Finset.univ.sup) (funext fun r => kCx_apply cs r q)

end Stages

/-- What the tile hands on, at column `q`: the product's rows are the tile's cosines. -/
theorem pay3_apply (a : FVec Ideal S1x256x512 .bf16) (b : FVec Ideal S1x256x4096 .bf16) (q : Fin 4096) :
    k1_pay3 (F := Ideal) a b (ix2 (0 : Fin 1) q) = Finset.univ.sup fun r : Fin 512 => rcx (cosT a b r) q := by
  rw [pay3_eq, kOut_apply]
  exact congrArg (Finset.univ.sup) (funext fun r => congrArg (fun f => rcx f q) (funext fun q' => cos_apply a b r q'))

end Cert.Ctx.K1

end
-- ==== Proof.KCtxArr.lean ====
/-
  The array the contextual kernel leaves.

  The kernel runs over a grid of 4 × 8 points: point `(n, j)` reads the tile of rows `512·j … 512·j + 511` of batch
  entry `n` of the first normalised array and all 4096 positions of batch entry `n` of the second, and keeps the
  output block of batch entry `n` in place over the eight points `j`, writing it back after the last.  The block
  starts at `-1` and each point replaces it by the larger of itself and the tile's column maxima, so after point
  `j` it holds, at column `q`, the larger of `-1` and the maximum of the normalised weights of rows below
  `512·(j + 1)`; after the eighth point that is every row.
-/
import proofs.«172719_j39960375722309_2_alg».proof.Proof.Gen.KernelIdeal.Frame
import proofs.«172719_j39960375722309_2_alg».proof.Proof.KCases
import proofs.«172719_j39960375722309_2_alg».proof.Proof.KPay1b
import proofs.«172719_j39960375722309_2_alg».proof.Proof.Tiles
import Idealize.ShloMosaic.Lib.Pipeline.Value

set_option maxRecDepth 16384

noncomputable section

namespace Cert.Ctx.K1

open Idealize.ShloMosaic Idealize.ShloMosaic.ValueIdx Idealize.ShloMosaic.TcCoe Idealize.SL.Sem
open Cert.KernelIdeal Cert.KernelIdeal.Gen
open Idealize.ShloMosaic.Pipeline (Dat)

/-- The cosine between position `p` of `A` and position `q` of `B`, in batch entry `n`. -/
def cosArr (A B : S4x256x4096.Idx → EReal) (n : Fin 4) (p q : Fin 4096) : EReal :=
  ∑ k : Fin 256, A (ix3 n k p) * B (ix3 n k q)

/-- The normalised weight of row `p` at column `q`, in batch entry `n`. -/
def gArr (A B : S4x256x4096.Idx → EReal) (n : Fin 4) (q : Fin 4096) (p : Fin 4096) : EReal := rcx (cosArr A B n p) q

/-- The column maxima started from `-1`, as a `[4, 1, 4096]` array. -/
def colMaxArr (A B : S4x256x4096.Idx → EReal) : S4x1x4096.Idx → EReal :=
  fun i => max (-1) (Finset.univ.sup (gArr A B ⟨(i 0).val, (i 0).isLt⟩ ⟨(i 2).val, (i 2).isLt⟩))

theorem colMaxArr_ix3 (A B : S4x256x4096.Idx → EReal) (n : Fin 4) (u : Fin 1) (q : Fin 4096) :
    colMaxArr A B (ix3 n u q) = max (-1) (Finset.univ.sup (gArr A B n q)) := rfl

variable (V : (c : Dev nD) → (b : Ref sig .tc) → Buf (Elt Ideal) ((c : Thread nD τ).loc b))

/-- The printed index maps, decided over the grid: the first input's block moves with the batch entry and the tile,
    the second input's and the output's with the batch entry only. -/
theorem idx_facts1 : ∀ t : Fin cfg1.N, win1_0.index t (0 : Fin 3) = t.val / 8 ∧ win1_0.index t (1 : Fin 3) = 0
    ∧ win1_0.index t (2 : Fin 3) = t.val % 8
    ∧ win1_1.index t (0 : Fin 3) = t.val / 8 ∧ win1_1.index t (1 : Fin 3) = 0 ∧ win1_1.index t (2 : Fin 3) = 0
    ∧ win1_2.index t (0 : Fin 3) = t.val / 8 ∧ win1_2.index t (1 : Fin 3) = 0 ∧ win1_2.index t (2 : Fin 3) = 0 :=
  (by decide +kernel : ∀ t : Fin grid1.N, _)

/-- The first input's block at a point: rows `512·j + r` of the batch entry. -/
theorem blk0_apply (c : Dev nD) (t : Fin cfg1.N) (b : Fin 4) (hb : b.val = t.val / 8) (k : Fin 256) (r : Fin 512) :
    iblk1 V c 0 t (ix3 (0 : Fin 1) k r)
      = V c main_v6_0 (ix3 b k (⟨512 * (t.val % 8) + r.val, by have := r.isLt; omega⟩ : Fin 4096)) := by
  obtain ⟨e0, e1, e2, -⟩ := idx_facts1 t
  show V c main_v6_0 (((cfg1.win 0).blk t).view.emb (ix3 (0 : Fin 1) k r)) = _
  refine congrArg (V c main_v6_0) (funext fun a => Fin.ext ?_)
  match a with
  | ⟨0, _⟩ => show win1_0.index t (0 : Fin 3) * 1 + 1 * 0 = b.val; omega
  | ⟨1, _⟩ => show win1_0.index t (1 : Fin 3) * 256 + 1 * k.val = k.val; omega
  | ⟨2, _⟩ => show win1_0.index t (2 : Fin 3) * 512 + 1 * r.val = 512 * (t.val % 8) + r.val; omega

/-- The second input's block at a point: the whole batch entry. -/
theorem blk1_apply (c : Dev nD) (t : Fin cfg1.N) (b : Fin 4) (hb : b.val = t.val / 8) (k : Fin 256) (q : Fin 4096) :
    iblk1 V c 1 t (ix3 (0 : Fin 1) k q) = V c main_v6_1 (ix3 b k q) := by
  obtain ⟨-, -, -, e0, e1, e2, -⟩ := idx_facts1 t
  show V c main_v6_1 (((cfg1.win 1).blk t).view.emb (ix3 (0 : Fin 1) k q)) = _
  refine congrArg (V c main_v6_1) (funext fun a => Fin.ext ?_)
  match a with
  | ⟨0, _⟩ => show win1_1.index t (0 : Fin 3) * 1 + 1 * 0 = b.val; omega
  | ⟨1, _⟩ => show win1_1.index t (1 : Fin 3) * 256 + 1 * k.val = k.val; omega
  | ⟨2, _⟩ => show win1_1.index t (2 : Fin 3) * 4096 + 1 * q.val = q.val; omega

/-- The tile's column maximum at a point: the maximum of the normalised weights over the tile's rows. -/
theorem tile_apply (c : Dev nD) (t : Fin cfg1.N) (b : Fin 4) (hb : b.val = t.val / 8) (q : Fin 4096) :
    k1_pay3 (F := Ideal) (iblk1 V c 0 t) (iblk1 V c 1 t) (ix2 (0 : Fin 1) q)
      = Finset.univ.sup fun r : Fin 512 =>
          gArr (V c main_v6_0) (V c main_v6_1) b q (⟨512 * (t.val % 8) + r.val, by have := r.isLt; omega⟩ : Fin 4096) := by
  refine (pay3_apply (iblk1 V c 0 t) (iblk1 V c 1 t) q).trans ?_
  refine congrArg (Finset.univ.sup ·) (funext fun r => ?_)
  unfold gArr
  refine congrArg (fun f => rcx f q) (funext fun q' => ?_)
  unfold cosT cosArr
  exact Finset.sum_congr rfl fun k _ => by rw [blk0_apply V c t b hb, blk1_apply V c t b hb]

/-- After point `n` of batch entry `b` the output block holds, at column `q`, the larger of `-1` and the maximum of
    the normalised weights of the rows below `512·(n % 8 + 1)`. -/
theorem outsAt_inv (c : Dev nD) : ∀ (n : ℕ) (h : n < cfg1.N) (b : Fin 4) (hb : b.val = n / 8) (q : Fin 4096),
    outsAt1 V c n h (ix3 (0 : Fin 1) (0 : Fin 1) q)
      = max (-1) (supBelow (gArr (V c main_v6_0) (V c main_v6_1) b q) (512 * (n % 8 + 1)))
  | 0, h, b, hb, q => by
    rw [outsAt1_A V c ⟨0, h⟩ rfl, out_A]
    refine (pay1_apply _ _ q).trans ?_
    rw [pay2_apply, tile_apply V c ⟨0, h⟩ b hb q]
    have hs := supBelow_tile (gArr (V c main_v6_0) (V c main_v6_1) b q) 0 (by omega)
    rw [supBelow_zero, max_eq_right bot_le] at hs
    exact congrArg (max (-1)) hs.symm
  | n + 1, h, b, hb, q => by
    have hN : cfg1.N = 32 := N_1
    by_cases h0 : (n + 1) % 8 = 0
    · rw [outsAt1_A V c ⟨n + 1, h⟩ h0, out_A]
      refine (pay1_apply _ _ q).trans ?_
      rw [pay2_apply, tile_apply V c ⟨n + 1, h⟩ b hb q]
      have hs := supBelow_tile (gArr (V c main_v6_0) (V c main_v6_1) b q) 0 (by omega)
      rw [supBelow_zero, max_eq_right bot_le] at hs
      have e2 : supBelow (gArr (V c main_v6_0) (V c main_v6_1) b q) (512 * ((n + 1) % 8 + 1))
          = supBelow (gArr (V c main_v6_0) (V c main_v6_1) b q) (512 * (0 + 1)) := by rw [h0]
      show max (-1) _ = max (-1) (supBelow _ (512 * ((n + 1) % 8 + 1)))
      rw [e2, hs]
      refine congrArg (max (-1)) (congrArg (Finset.univ.sup ·) (funext fun r => ?_))
      refine congrArg (gArr _ _ b q) (Fin.ext ?_)
      show 512 * ((n + 1) % 8) + r.val = 512 * 0 + r.val
      rw [h0]
    · rw [outsAt1_B V c ⟨n + 1, h⟩ h0, out_B]
      refine (pay1_apply _ _ q).trans ?_
      rw [tile_apply V c ⟨n + 1, h⟩ b hb q]
      have ih := outsAt_inv c n (Nat.lt_of_succ_lt h) b (by omega) q
      show max (outsAt1 V c n _ (ix3 (0 : Fin 1) (0 : Fin 1) q)) _ = _
      rw [ih]
      have hj : (n + 1) % 8 = n % 8 + 1 := by omega
      have hs := supBelow_tile (gArr (V c main_v6_0) (V c main_v6_1) b q) (n % 8 + 1) (by omega)
      have e2 : supBelow (gArr (V c main_v6_0) (V c main_v6_1) b q) (512 * ((n + 1) % 8 + 1))
          = supBelow (gArr (V c main_v6_0) (V c main_v6_1) b q) (512 * (n % 8 + 1 + 1)) := by rw [hj]
      show max (max (-1) (supBelow _ (512 * (n % 8 + 1)))) _ = max (-1) (supBelow _ (512 * ((n + 1) % 8 + 1)))
      rw [e2, hs, max_assoc]
      refine congrArg (fun z => max (-1) (max _ z)) ?_
      refine congrArg (Finset.univ.sup ·) (funext fun r => ?_)
      refine congrArg (gArr _ _ b q) (Fin.ext ?_)
      show 512 * ((n + 1) % 8) + r.val = 512 * (n % 8 + 1) + r.val
      rw [hj]

/-- What a flushing point writes back is its block of the column-maximum array. -/
theorem flushed2_eq (c : Dev nD) (t : Fin cfg1.N) (hf : (cfg1.win 2).flush t = true) :
    (dat1 V c).flushed 2 t = ((cfg1.win 2).blk t).view.read (Elt Ideal) (colMaxArr (V c main_v6_0) (V c main_v6_1)) := by
  have hN : cfg1.N = 32 := N_1
  have h7 : t.val % 8 = 7 := (flush1_2 t).mp hf
  obtain ⟨-, -, -, -, -, -, e0, e1, e2⟩ := idx_facts1 t
  show (cfg1.win 2).cut (grid1.coords t) ((dat1 V c).after 2 t) = _
  rw [after1_2]
  funext j
  revert j
  show ∀ j : S1x1x4096.Idx, outsAt1 V c t.val t.isLt j
      = colMaxArr (V c main_v6_0) (V c main_v6_1) (((cfg1.win 2).blk t).view.emb j)
  intro j
  obtain ⟨u, u', q, rfl⟩ : ∃ (u u' : Fin 1) (q : Fin 4096), j = ix3 u u' q := ⟨j 0, j 1, j 2, eq_ix3 j⟩
  obtain rfl : u = 0 := Subsingleton.elim _ _
  obtain rfl : u' = 0 := Subsingleton.elim _ _
  have hemb : ((cfg1.win 2).blk t).view.emb (ix3 (0 : Fin 1) (0 : Fin 1) q)
      = ix3 (⟨t.val / 8, by have := t.isLt; omega⟩ : Fin 4) (0 : Fin 1) q := by
    refine funext fun a => Fin.ext ?_
    match a with
    | ⟨0, _⟩ => show win1_2.index t (0 : Fin 3) * 1 + 1 * 0 = t.val / 8; omega
    | ⟨1, _⟩ => show win1_2.index t (1 : Fin 3) * 1 + 1 * 0 = 0; omega
    | ⟨2, _⟩ => show win1_2.index t (2 : Fin 3) * 4096 + 1 * q.val = q.val; omega
  rw [hemb, colMaxArr_ix3, outsAt_inv V c t.val t.isLt ⟨t.val / 8, by have := t.isLt; omega⟩ rfl q, h7]
  exact congrArg (max (-1)) (supBelow_full _)

/-- An index of the array is in point `t`'s block iff each coordinate is in the block's range on its axis. -/
theorem mem_blk2 (t : Fin cfg1.N) (i : S4x1x4096.Idx) :
    i ∈ ((cfg1.win 2).blk t).view.set ↔ ∀ a : Fin 3, win1_2.index t a * S1x1x4096.size a ≤ (i a).val
      ∧ (i a).val < win1_2.index t a * S1x1x4096.size a + S1x1x4096.size a := by
  show i ∈ ((View.whole main_v7).slice (win1_2.rect t)).set ↔ _
  rw [View.set_slice_whole, Rect.mem_set_unit]
  exact Iff.rfl

/-- Every batch entry's block is written back by the last of its eight points. -/
theorem idx_onto2 : ∀ q0 : Fin 4, ∃ t : Fin cfg1.N, t.val % 8 = 7 ∧ win1_2.index t = ![q0.val, 0, 0] :=
  (by decide +kernel : ∀ q0 : Fin 4, ∃ t : Fin grid1.N, t.val % 8 = 7 ∧ win1_2.index t = ![q0.val, 0, 0])

/-- Every index of the array lies in some flushing point's block. -/
theorem cover2 (i : S4x1x4096.Idx) :
    ∃ t : Fin cfg1.N, (cfg1.win 2).flush t = true ∧ i ∈ ((cfg1.win 2).blk t).view.set := by
  have hi0 : (i 0).val < 4 := (i 0).isLt
  have hi1 : (i 1).val < 1 := (i 1).isLt
  have hi2 : (i 2).val < 4096 := (i 2).isLt
  obtain ⟨t, h7, ht⟩ := idx_onto2 ⟨(i 0).val, hi0⟩
  have q0 : win1_2.index t (0 : Fin 3) = (i 0).val := congrFun ht 0
  have q1 : win1_2.index t (1 : Fin 3) = 0 := congrFun ht 1
  have q2 : win1_2.index t (2 : Fin 3) = 0 := congrFun ht 2
  refine ⟨t, (flush1_2 t).mpr h7, ?_⟩
  rw [mem_blk2]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 1 ≤ (i 1).val ∧ (i 1).val < win1_2.index t (1 : Fin 3) * 1 + 1; omega
  | ⟨2, _⟩ => show win1_2.index t (2 : Fin 3) * 4096 ≤ (i 2).val ∧ (i 2).val < win1_2.index t (2 : Fin 3) * 4096 + 4096; omega

/-- The output array after the region: the column maxima of the two arrays the region found. -/
theorem final2 (c : Dev nD) : (dat1 V c).arrAt 2 cfg1.N = colMaxArr (V c main_v6_0) (V c main_v6_1) :=
  (dat1 V c).arrAt_eq_of_cover 2 (colMaxArr (V c main_v6_0) (V c main_v6_1)) (fun t hf => flushed2_eq V c t hf) cover2

end Cert.Ctx.K1

end
-- ==== Proof.KHost.lean ====
/-
  The host operations around the two kernel launches, read back.

  Before the launches the program computes the per-channel mean of its second input — the total over batch and
  positions divided by their number, as a `[256, 1]` array — and reads both inputs as `[4, 256, 4096]` arrays,
  position `p` of the flattened axis being row `p / 64`, column `p % 64`.  After the launches it reads the
  `[4, 1, 4096]` array of column maxima as `[4, 4096]` and goes from it to the scalar by the mean over positions,
  plus `ε`, minus the logarithm, the mean over the batch.  A reshape keeps the row-major position of every entry,
  so each of these reads at an index is the operand at the index with the same position.
-/
import proofs.«172719_j39960375722309_2_alg».proof.Proof.Gen.KernelIdeal.Frame
import proofs.«172719_j39960375722309_2_alg».proof.Proof.Shared
import Idealize.ShloMosaic.Lib.StableHlo.Run
import Idealize.ShloMosaic.Lib.Pipeline.Value

noncomputable section

namespace Cert.Ctx.KH

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ) (ρ : Dev nD → PrngReg)

/-- The `[4, 1, 4096]` array read as `[4, 4096]`: entry `(n, q)` is entry `(n, 0, q)`. -/
theorem v8_apply (A : S4x1x4096.Idx → EReal) (n : Fin 4) (q : Fin 4096) :
    shapeCast S4x4096 A shapeCasts_S4x1x4096_S4x4096 (ix2 n q) = A (ix3 n (0 : Fin 1) q) :=
  shapeCast_apply A shapeCasts_S4x1x4096_S4x4096 (ix2 n q) (ix3 n (0 : Fin 1) q)
    (by rewrite [Shape.rowMajor_val_three, Shape.rowMajor_val_two]
        show (n.val * 1 + 0) * 4096 + q.val = n.val * 4096 + q.val
        omega)

/-- An input read as `[4, 256, 4096]`: position `p` is row `p / 64`, column `p % 64`. -/
theorem reshape_flat (x : FVec Ideal SIn .f32) (n : Fin 4) (k : Fin 256) (p : Fin 4096) :
    shapeCast S4x256x4096 x shapeCasts_S4x256x64x64_S4x256x4096 (ix3 n k p) = Cert.Ctx.flat x n k p := by
  unfold Cert.Ctx.flat
  exact shapeCast_apply x shapeCasts_S4x256x64x64_S4x256x4096 (ix3 n k p) _
    (by rewrite [Shape.rowMajor_val_four, Shape.rowMajor_val_three]
        have hp := p.isLt
        show ((n.val * 256 + k.val) * 64 + p.val / 64) * 64 + p.val % 64 = (n.val * 256 + k.val) * 4096 + p.val
        omega)

/-- The first input as the first launch finds it: flattened. -/
theorem v4_apply (c : Dev nD) (n : Fin 4) (k : Fin 256) (p : Fin 4096) :
    V1 m ρ c main_v4 (ix3 n k p) = Cert.Ctx.flat (m ((c : Thread nD τ).loc main_arg0)) n k p := by
  show StableHlo.after hostOps0 _ (Proc.devRef .tc main_v4) (ix3 n k p) = _
  after_results
  exact reshape_flat (m ((c : Thread nD τ).loc main_arg0)) n k p

/-- The second input as the first launch finds it: flattened. -/
theorem v5_apply (c : Dev nD) (n : Fin 4) (k : Fin 256) (p : Fin 4096) :
    V1 m ρ c main_v5 (ix3 n k p) = Cert.Ctx.flat (m ((c : Thread nD τ).loc main_arg1)) n k p := by
  show StableHlo.after hostOps0 _ (Proc.devRef .tc main_v5) (ix3 n k p) = _
  after_results
  exact reshape_flat (m ((c : Thread nD τ).loc main_arg1)) n k p

/-- The `[256, 1]` mean array at channel `k` is the per-channel mean of the second input. -/
theorem v3_apply (c : Dev nD) (k : Fin 256) :
    V1 m ρ c main_v3 (ix2 k (0 : Fin 1)) = Cert.Ctx.mu reducesTo_S4x256x64x64_S256_d0_2_3 h_S_ bcast_S_S256 (m ((c : Thread nD τ).loc main_arg1)) k := by
  show StableHlo.after hostOps0 _ (Proc.devRef .tc main_v3) (ix2 k (0 : Fin 1)) = _
  after_results
  show shapeCast S256x1 (Cert.Ctx.muArr reducesTo_S4x256x64x64_S256_d0_2_3 h_S_ bcast_S_S256 (m ((c : Thread nD τ).loc main_arg1)))
    shapeCasts_S256_S256x1 (ix2 k (0 : Fin 1)) = _
  unfold Cert.Ctx.mu
  exact shapeCast_apply _ shapeCasts_S256_S256x1 (ix2 k (0 : Fin 1)) (ix1 k)
    (by rewrite [Shape.rowMajor_val_one, Shape.rowMajor_val_two]
        show k.val = k.val * 1 + 0
        omega)

/-- The returned scalar is the common last operations applied to the second launch's array of column maxima. -/
theorem v17_eq (c : Dev nD) :
    W4 m ρ c (Proc.devRef .tc main_v17) = Cert.Ctx.tail reducesTo_S4x4096_S4_d1 bcast_S_S4 reducesTo_S4_S_d0 h_S_
      (shapeCast S4x4096 (W3 m ρ c (Proc.devRef .tc main_v7)) shapeCasts_S4x1x4096_S4x4096) := by
  show StableHlo.after hostOps2 _ (Proc.devRef .tc main_v17) = _
  after_results
  rfl

end Cert.Ctx.KH

end
-- ==== Proof.KValue.lean ====
/-
  The kernel program's result as one function of its two arguments.

  Reading the program's fold backwards: the result is the shared tail of the `[4, 4096]` view of the second region's
  output; that output is the column-maximum array of the two arrays the first region leaves; those are the
  normalised arrays of the flattened arguments, centred at the per-channel mean of the second.  In the vocabulary of
  the specification the `[4, 4096]` array is the column maxima in the spelling with reciprocals.
-/
import proofs.«172719_j39960375722309_2_alg».proof.Proof.KNormArr
import proofs.«172719_j39960375722309_2_alg».proof.Proof.KCtxArr
import proofs.«172719_j39960375722309_2_alg».proof.Proof.KHost
import proofs.«172719_j39960375722309_2_alg».proof.Proof.Shared

set_option maxRecDepth 16384

noncomputable section

namespace Cert.Ctx.KV

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ) (ρ : Dev nD → PrngReg)

/-- The per-channel mean of the second argument, with the kernel program's own shape facts. -/
abbrev muK (c : Dev nD) : Fin 256 → EReal :=
  Cert.Ctx.mu reducesTo_S4x256x64x64_S256_d0_2_3 h_S_ bcast_S_S256 (m ((c : Thread nD τ).loc main_arg1))

/-- The first region's first output: the unit vectors of the first argument, in the spelling with reciprocals. -/
theorem xn_apply (c : Dev nD) (n : Fin 4) (k : Fin 256) (p : Fin 4096) :
    V2 m ρ c main_v6_0 (ix3 n k p)
      = Cert.Ctx.unitM (Cert.Ctx.cen (Cert.Ctx.flat (m ((c : Thread nD τ).loc main_arg0))) (muK m c)) n k p := by
  show W2 m ρ c (Proc.devRef .tc (Pipeline.arrRef spec0 3)) (ix3 n k p) = _
  rw [W2_arr m ρ c 3, Cert.Ctx.K0.final3 (V1 m ρ) c, Cert.Ctx.K0.nrmArr_ix3]
  unfold Cert.Ctx.K0.nrmAt Cert.Ctx.unitM Cert.Ctx.ss Cert.Ctx.cen
  have h4 : ∀ k' : Fin 256, V1 m ρ c main_v4 (ix3 n k' p) = Cert.Ctx.flat (m ((c : Thread nD τ).loc main_arg0)) n k' p :=
    fun k' => Cert.Ctx.KH.v4_apply m ρ c n k' p
  have h3 : ∀ k' : Fin 256, V1 m ρ c main_v3 (ix2 k' (0 : Fin 1)) = muK m c k' := fun k' => Cert.Ctx.KH.v3_apply m ρ c k'
  simp only [h4, h3]

/-- The first region's second output: the unit vectors of the second argument. -/
theorem yn_apply (c : Dev nD) (n : Fin 4) (k : Fin 256) (p : Fin 4096) :
    V2 m ρ c main_v6_1 (ix3 n k p)
      = Cert.Ctx.unitM (Cert.Ctx.cen (Cert.Ctx.flat (m ((c : Thread nD τ).loc main_arg1))) (muK m c)) n k p := by
  show W2 m ρ c (Proc.devRef .tc (Pipeline.arrRef spec0 4)) (ix3 n k p) = _
  rw [W2_arr m ρ c 4, Cert.Ctx.K0.final4 (V1 m ρ) c, Cert.Ctx.K0.nrmArr_ix3]
  unfold Cert.Ctx.K0.nrmAt Cert.Ctx.unitM Cert.Ctx.ss Cert.Ctx.cen
  have h5 : ∀ k' : Fin 256, V1 m ρ c main_v5 (ix3 n k' p) = Cert.Ctx.flat (m ((c : Thread nD τ).loc main_arg1)) n k' p :=
    fun k' => Cert.Ctx.KH.v5_apply m ρ c n k' p
  have h3 : ∀ k' : Fin 256, V1 m ρ c main_v3 (ix2 k' (0 : Fin 1)) = muK m c k' := fun k' => Cert.Ctx.KH.v3_apply m ρ c k'
  simp only [h5, h3]

/-- The column maxima the second region leaves, in the specification's spelling with reciprocals. -/
theorem colMax_apply (c : Dev nD) (n : Fin 4) (q : Fin 4096) :
    W3 m ρ c (Proc.devRef .tc main_v7) (ix3 n (0 : Fin 1) q)
      = Cert.Ctx.colMaxM Cert.Ctx.E (Cert.Ctx.flat (m ((c : Thread nD τ).loc main_arg0)))
          (Cert.Ctx.flat (m ((c : Thread nD τ).loc main_arg1))) (muK m c) n q := by
  show W3 m ρ c (Proc.devRef .tc (Pipeline.arrRef spec1 2)) (ix3 n (0 : Fin 1) q) = _
  rw [W3_arr m ρ c 2, Cert.Ctx.K1.final2 (V2 m ρ) c]
  show Cert.Ctx.K1.colMaxArr (V2 m ρ c main_v6_0) (V2 m ρ c main_v6_1) (ix3 n (0 : Fin 1) q)
    = (Cert.Ctx.colMaxM Cert.Ctx.E (Cert.Ctx.flat (m ((c : Thread nD τ).loc main_arg0)))
        (Cert.Ctx.flat (m ((c : Thread nD τ).loc main_arg1))) (muK m c) n q : EReal)
  rw [Cert.Ctx.K1.colMaxArr_ix3]
  unfold Cert.Ctx.colMaxM
  refine congrArg (max (-1 : EReal)) (congrArg (fun f : Fin 4096 → EReal => Finset.univ.sup f) (funext fun p => ?_))
  unfold Cert.Ctx.K1.gArr
  show Cert.Ctx.K1.rcx (Cert.Ctx.K1.cosArr (V2 m ρ c main_v6_0) (V2 m ρ c main_v6_1) n p) q
    = Cert.Ctx.K1.rcx (Cert.Ctx.cosOf _ _ n p) q
  refine congrArg (fun f => Cert.Ctx.K1.rcx f q) (funext fun q' => ?_)
  unfold Cert.Ctx.K1.cosArr Cert.Ctx.cosOf
  exact Finset.sum_congr rfl fun k _ => by rw [xn_apply, yn_apply]

/-- The column maxima in the spelling with reciprocals, as a `[4, 4096]` array of the two arguments. -/
def colK (c : Dev nD) : FVec Ideal Cert.Ctx.SOut .f32 :=
  fun i => Cert.Ctx.colMaxM Cert.Ctx.E (Cert.Ctx.flat (m ((c : Thread nD τ).loc main_arg0)))
    (Cert.Ctx.flat (m ((c : Thread nD τ).loc main_arg1))) (muK m c) ⟨(i 0).val, (i 0).isLt⟩ ⟨(i 1).val, (i 1).isLt⟩

/-- The kernel program's result as a function of its two arguments. -/
def resK (c : Dev nD) : FVec Ideal Cert.Ctx.S0 .f32 :=
  Cert.Ctx.tail reducesTo_S4x4096_S4_d1 bcast_S_S4 reducesTo_S4_S_d0 h_S_ (colK m c)

/-- The kernel program's result: the shared tail of the column maxima in the spelling with reciprocals. -/
theorem result_eq (c : Dev nD) : W4 m ρ c (Proc.devRef .tc main_v17) = resK m c := by
  unfold resK colK
  rw [Cert.Ctx.KH.v17_eq]
  refine congrArg (Cert.Ctx.tail _ _ _ _) (funext fun i => ?_)
  obtain ⟨n, q, rfl⟩ : ∃ (n : Fin 4) (q : Fin 4096), i = ix2 n q := ⟨i 0, i 1, eq_ix2 i⟩
  rw [Cert.Ctx.KH.v8_apply]
  exact colMax_apply m ρ c n q

end Cert.Ctx.KV

end
-- ==== Proof.Ref.lean ====
/-
  The reference program read against the two shared spellings.

  The reference computes the column maxima with quotients throughout; read stage by stage at an index it is the
  array `colMaxD` of the flattened inputs and the per-channel mean, and from that array on its last operations
  are the shared tail.
-/
import proofs.«172719_j39960375722309_2_alg».proof.Proof.Gen.ReferenceIdeal.Read
import proofs.«172719_j39960375722309_2_alg».proof.Proof.Shared

noncomputable section

namespace Cert.Ctx.Ref

open Cert.ReferenceIdeal Cert.ReferenceIdeal.Gen Cert.ReferenceIdeal.Read Idealize.ShloMosaic Idealize.ShloMosaic.ValueIdx

/-- From the column maxima on, the reference's operations are the shared tail. -/
theorem tail_ref (x y : FVec Ideal Cert.Ctx.SIn .f32) :
    val_main_v43 (F := Ideal) x y
      = Cert.Ctx.tail reducesTo_S4x4096_S4_d1 bcast_S_S4 reducesTo_S4_S_d0 h_S_ (val_main_v34 (F := Ideal) x y) := by
  unfold val_main_v43 val_main_v42 val_main_v41 val_main_v40 val_main_v39 val_main_v38 val_main_v37 val_main_v36
    val_main_v35 val_main_cst_8 val_main_cst_9 val_main_cst_10 val_main_cst_11 val_main_cst_12 Cert.Ctx.tail
  rfl

variable (x y : FVec Ideal Cert.Ctx.SIn .f32)

/-- The per-channel mean of the second input, as the reference computes it. -/
abbrev muR (y : FVec Ideal Cert.Ctx.SIn .f32) : Fin 256 → EReal :=
  Cert.Ctx.mu reducesTo_S4x256x64x64_S256_d0_2_3 h_S_ bcast_S_S256 y

/-- The row of a flattened position. -/
abbrev hi (p : Fin 4096) : Fin 64 := ⟨p.val / 64, by have := p.isLt; omega⟩
/-- The column of a flattened position. -/
abbrev lo (p : Fin 4096) : Fin 64 := ⟨p.val % 64, by have := p.isLt; omega⟩

/-! ## The mean and the centred arrays -/

theorem v2_at (c : Fin 256) : val_main_v2 (F := Ideal) y (ix1 c) = muR y c := rfl

theorem v4_at (n : Fin 4) (c : Fin 256) (h w : Fin 64) :
    val_main_v4 (F := Ideal) y (ix4 n c h w) = muR y c := by
  rw [val_main_v4_apply, val_main_v3_apply]
  have e : idx_main_v3 (idx_main_v4 (ix4 n c h w)) = ix1 c := by
    funext a
    match a with
    | ⟨0, _⟩ => exact Fin.ext (by show ((0 * 256 + c.val) * 1 + 0) * 1 + 0 = c.val; omega)
  rw [e]; rfl

theorem v6_at (n : Fin 4) (c : Fin 256) (h w : Fin 64) :
    val_main_v6 (F := Ideal) y (ix4 n c h w) = muR y c := by
  rw [val_main_v6_apply, val_main_v3_apply]
  have e : idx_main_v3 (idx_main_v6 (ix4 n c h w)) = ix1 c := by
    funext a
    match a with
    | ⟨0, _⟩ => exact Fin.ext (by show ((0 * 256 + c.val) * 1 + 0) * 1 + 0 = c.val; omega)
  rw [e]; rfl

/-- The first input minus the mean, at a flattened position. -/
theorem v5_at (n : Fin 4) (c : Fin 256) (p : Fin 4096) :
    val_main_v5 (F := Ideal) x y (ix4 n c (hi p) (lo p)) = cen (flat x) (muR y) n c p := by
  rw [val_main_v5_apply, v4_at]; rfl

/-- The second input minus the mean, at a flattened position. -/
theorem v7_at (n : Fin 4) (c : Fin 256) (p : Fin 4096) :
    val_main_v7 (F := Ideal) y (ix4 n c (hi p) (lo p)) = cen (flat y) (muR y) n c p := by
  rw [val_main_v7_apply, v6_at]; rfl

/-! ## The lengths and the unit vectors -/

theorem v8_at (n : Fin 4) (p : Fin 4096) :
    val_main_v8 (F := Ideal) x y (ix4 n (⟨0, Nat.one_pos⟩ : Fin 1) (hi p) (lo p))
      = Ideal.sqrt (ss (cen (flat x) (muR y)) n p) := by
  rw [val_main_v8_apply, val_main_call0_v2_apply, val_main_call0_v1_apply, val_main_call0_cst_apply]
  rw [Ideal.hostUnary_sqrt_def, Ideal.ofBits_def, Ideal.ofBits_zero_f32, zero_add]
  unfold ss
  refine congrArg Ideal.sqrt (Finset.sum_congr rfl fun k _ => ?_)
  have e : idx_main_call0_v1 (idx_main_call0_v2 (ix4 n (⟨0, Nat.one_pos⟩ : Fin 1) (hi p) (lo p))) k = ix4 n k (hi p) (lo p) := by
    funext a
    match a with
    | ⟨0, _⟩ => rfl
    | ⟨1, _⟩ => rfl
    | ⟨2, _⟩ => rfl
    | ⟨3, _⟩ => rfl
  rw [e, val_main_call0_v0_apply, v5_at]; rfl

theorem v11_at (n : Fin 4) (p : Fin 4096) :
    val_main_v11 (F := Ideal) y (ix4 n (⟨0, Nat.one_pos⟩ : Fin 1) (hi p) (lo p))
      = Ideal.sqrt (ss (cen (flat y) (muR y)) n p) := by
  rw [val_main_v11_apply, val_main_call1_v2_apply, val_main_call1_v1_apply, val_main_call1_cst_apply]
  rw [Ideal.hostUnary_sqrt_def, Ideal.ofBits_def, Ideal.ofBits_zero_f32, zero_add]
  unfold ss
  refine congrArg Ideal.sqrt (Finset.sum_congr rfl fun k _ => ?_)
  have e : idx_main_call1_v1 (idx_main_call1_v2 (ix4 n (⟨0, Nat.one_pos⟩ : Fin 1) (hi p) (lo p))) k = ix4 n k (hi p) (lo p) := by
    funext a
    match a with
    | ⟨0, _⟩ => rfl
    | ⟨1, _⟩ => rfl
    | ⟨2, _⟩ => rfl
    | ⟨3, _⟩ => rfl
  rw [e, val_main_call1_v0_apply, v7_at]; rfl

/-- The first input's unit vectors. -/
theorem v10_at (n : Fin 4) (c : Fin 256) (p : Fin 4096) :
    val_main_v10 (F := Ideal) x y (ix4 n c (hi p) (lo p)) = unitD (cen (flat x) (muR y)) n c p := by
  rw [val_main_v10_apply, val_main_v9_apply, v5_at]
  have e : idx_main_v9 (ix4 n c (hi p) (lo p)) = ix4 n (⟨0, Nat.one_pos⟩ : Fin 1) (hi p) (lo p) := by
    funext a
    match a with
    | ⟨0, _⟩ => rfl
    | ⟨1, _⟩ => rfl
    | ⟨2, _⟩ => rfl
    | ⟨3, _⟩ => rfl
  rw [e, v8_at]; rfl

/-- The second input's unit vectors. -/
theorem v13_at (n : Fin 4) (c : Fin 256) (p : Fin 4096) :
    val_main_v13 (F := Ideal) y (ix4 n c (hi p) (lo p)) = unitD (cen (flat y) (muR y)) n c p := by
  rw [val_main_v13_apply, val_main_v12_apply, v7_at]
  have e : idx_main_v12 (ix4 n c (hi p) (lo p)) = ix4 n (⟨0, Nat.one_pos⟩ : Fin 1) (hi p) (lo p) := by
    funext a
    match a with
    | ⟨0, _⟩ => rfl
    | ⟨1, _⟩ => rfl
    | ⟨2, _⟩ => rfl
    | ⟨3, _⟩ => rfl
  rw [e, v11_at]; rfl

/-! ## The flattening and the cosines -/

/-- The flattened index `(n, c, p)` is the index `(n, c, p / 64, p % 64)` of the unflattened array. -/
theorem idx14_at (n : Fin 4) (c : Fin 256) (p : Fin 4096) :
    idx_main_v14 (ix3 n c p) = ix4 n c (hi p) (lo p) := by
  have hn := n.isLt
  have hc := c.isLt
  have hp := p.isLt
  funext a
  match a with
  | ⟨0, _⟩ => exact Fin.ext (by show ((n.val * 256 + c.val) * 4096 + p.val) / 1048576 = n.val; omega)
  | ⟨1, _⟩ => exact Fin.ext (by show ((n.val * 256 + c.val) * 4096 + p.val) / 4096 % 256 = c.val; omega)
  | ⟨2, _⟩ => exact Fin.ext (by show ((n.val * 256 + c.val) * 4096 + p.val) / 64 % 64 = p.val / 64; omega)
  | ⟨3, _⟩ => exact Fin.ext (by show ((n.val * 256 + c.val) * 4096 + p.val) % 64 = p.val % 64; omega)

theorem idx15_at (n : Fin 4) (c : Fin 256) (p : Fin 4096) :
    idx_main_v15 (ix3 n c p) = ix4 n c (hi p) (lo p) := idx14_at n c p

theorem v14_at (n : Fin 4) (c : Fin 256) (p : Fin 4096) :
    val_main_v14 (F := Ideal) x y (ix3 n c p) = unitD (cen (flat x) (muR y)) n c p := by
  rw [val_main_v14_apply, idx14_at, v10_at]

theorem v15_at (n : Fin 4) (c : Fin 256) (p : Fin 4096) :
    val_main_v15 (F := Ideal) y (ix3 n c p) = unitD (cen (flat y) (muR y)) n c p := by
  rw [val_main_v15_apply, idx15_at, v13_at]

/-- The cosines of the reference: the unit vectors of the two centred inputs. -/
abbrev csR (x y : FVec Ideal Cert.Ctx.SIn .f32) : Fin 4 → Fin 4096 → Fin 4096 → EReal :=
  cosOf (unitD (cen (flat x) (muR y))) (unitD (cen (flat y) (muR y)))

theorem v16_at (n : Fin 4) (p q : Fin 4096) :
    val_main_v16 (F := Ideal) x y (ix3 n p q) = csR x y n p q := by
  rw [val_main_v16_apply]
  unfold csR cosOf
  refine Finset.sum_congr rfl fun k _ => ?_
  have el : lidx_main_v16 (ix3 n p q) k = ix3 n k p := by
    funext a
    match a with
    | ⟨0, _⟩ => rfl
    | ⟨1, _⟩ => rfl
    | ⟨2, _⟩ => rfl
  have er : ridx_main_v16 (ix3 n p q) k = ix3 n k q := by
    funext a
    match a with
    | ⟨0, _⟩ => rfl
    | ⟨1, _⟩ => rfl
    | ⟨2, _⟩ => rfl
  rw [el, er, v14_at, v15_at]

/-- The distances `1 - cos`. -/
theorem v18_at (n : Fin 4) (p q : Fin 4096) :
    val_main_v18 (F := Ideal) x y (ix3 n p q) = 1 - csR x y n p q := by
  rw [val_main_v18_apply, val_main_v17_apply, val_main_cst_1_apply, v16_at,
    Ideal.ofBits_def, Cert.Ctx.ofBits_one]
  rfl

/-! ## The folds of a minimum from `⊤` and of a maximum from `⊥` -/

theorem fold_min_eq_inf {ι : Type} (s : Finset ι) (f : ι → EReal) : s.fold min ⊤ f = s.inf f :=
  eq_of_forall_le_iff fun c => by rw [Finset.le_fold_min, Finset.le_inf_iff]; simp

theorem fold_max_eq_sup {ι : Type} (s : Finset ι) (f : ι → EReal) : s.fold max ⊥ f = s.sup f :=
  eq_of_forall_ge_iff fun c => by rw [Finset.fold_max_le, Finset.sup_le_iff]; simp

theorem red2 : S4x4096x4096.Reduces [2] S4x4096 := by decide
theorem red1 : S4x4096x4096.Reduces [1] S4x4096 := by decide

/-- Over `(n, p)`, the index with `k` inserted on the last axis. -/
theorem lift2_at (n : Fin 4) (p k : Fin 4096) : red2.lift (ix2 n p) k = ix3 n p k := by
  funext c
  match c with
  | ⟨0, _⟩ => exact Fin.ext rfl
  | ⟨1, _⟩ => exact Fin.ext rfl
  | ⟨2, _⟩ => exact Fin.ext rfl

/-- Over `(n, q)`, the index with `k` inserted on the middle axis. -/
theorem lift1_at (n : Fin 4) (q k : Fin 4096) : red1.lift (ix2 n q) k = ix3 n k q := by
  funext c
  match c with
  | ⟨0, _⟩ => exact Fin.ext rfl
  | ⟨1, _⟩ => exact Fin.ext rfl
  | ⟨2, _⟩ => exact Fin.ext rfl

/-- A minimum over the last axis from `⊤`, at `(n, p)`: the infimum over the last coordinate. -/
theorem reduce_min_last (v : S4x4096x4096.Idx → EReal) (init : S_.Idx → EReal)
    (hinit : init (Shape.Idx.first h_S_) = ⊤) (n : Fin 4) (p : Fin 4096) :
    Host.reduce (FloatOps.minimumf (F := Ideal) (φ := .f32)) v init reducesTo_S4x4096x4096_S4x4096_d2 h_S_ (ix2 n p)
      = Finset.univ.inf fun q : Fin 4096 => v (ix3 n p q) := by
  rw [Host.reduce_eq_fold_single (FloatOps.minimumf (F := Ideal) (φ := .f32)) v init
    reducesTo_S4x4096x4096_S4x4096_d2 red2 h_S_ (ix2 n p), hinit]
  have hf : (v ∘ red2.lift (ix2 n p)) = fun q : Fin 4096 => v (ix3 n p q) :=
    funext fun (k : Fin 4096) => congrArg v (lift2_at n p k)
  rw [hf]
  exact fold_min_eq_inf _ _

/-- A maximum over the middle axis from `⊥`, at `(n, q)`: the supremum over the middle coordinate. -/
theorem reduce_max_mid (v : S4x4096x4096.Idx → EReal) (init : S_.Idx → EReal)
    (hinit : init (Shape.Idx.first h_S_) = ⊥) (n : Fin 4) (q : Fin 4096) :
    Host.reduce (FloatOps.maximumf (F := Ideal) (φ := .f32)) v init reducesTo_S4x4096x4096_S4x4096_d1 h_S_ (ix2 n q)
      = Finset.univ.sup fun p : Fin 4096 => v (ix3 n p q) := by
  rw [Host.reduce_eq_fold_single (FloatOps.maximumf (F := Ideal) (φ := .f32)) v init
    reducesTo_S4x4096x4096_S4x4096_d1 red1 h_S_ (ix2 n q), hinit]
  have hf : (v ∘ red1.lift (ix2 n q)) = fun p : Fin 4096 => v (ix3 n p q) :=
    funext fun (k : Fin 4096) => congrArg v (lift1_at n q k)
  rw [hf]
  exact fold_max_eq_sup _ _

/-! ## The row minimum and the weights -/

theorem cst2_top : val_main_cst_2 (F := Ideal) (Shape.Idx.first h_S_) = ⊤ := by
  rw [val_main_cst_2_apply, Ideal.ofBits_def, Cert.Ctx.ofBits_top]

theorem cst7_bot : val_main_cst_7 (F := Ideal) (Shape.Idx.first h_S_) = ⊥ := by
  rw [val_main_cst_7_apply, Ideal.ofBits_def, Cert.Ctx.ofBits_bot]

theorem v19_at (n : Fin 4) (p : Fin 4096) :
    val_main_v19 (F := Ideal) x y (ix2 n p) = dminD (csR x y) n p := by
  unfold val_main_v19
  refine (reduce_min_last (val_main_v18 (F := Ideal) x y) (val_main_cst_2 (F := Ideal)) cst2_top n p).trans ?_
  unfold dminD
  exact Finset.inf_congr rfl fun q _ => v18_at x y n p q

theorem v22_at (n : Fin 4) (p : Fin 4096) :
    val_main_v22 (F := Ideal) x y (ix3 n p (⟨0, Nat.one_pos⟩ : Fin 1)) = dminD (csR x y) n p + Cert.Ctx.E := by
  have e : idx_main_v20 (ix3 n p (⟨0, Nat.one_pos⟩ : Fin 1)) = ix2 n p := by
    funext a
    match a with
    | ⟨0, _⟩ => rfl
    | ⟨1, _⟩ => rfl
  rw [val_main_v22_apply, val_main_v20_apply, val_main_v21_apply, val_main_cst_3_apply, e, v19_at]
  rfl

theorem v23_at (n : Fin 4) (p q : Fin 4096) :
    val_main_v23 (F := Ideal) x y (ix3 n p q) = dminD (csR x y) n p + Cert.Ctx.E := by
  have e : idx_main_v23 (ix3 n p q) = ix3 n p (⟨0, Nat.one_pos⟩ : Fin 1) := by
    funext a
    match a with
    | ⟨0, _⟩ => rfl
    | ⟨1, _⟩ => rfl
    | ⟨2, _⟩ => rfl
  rw [val_main_v23_apply, e, v22_at]

/-- The weights `exp ((1 - d / (dmin + ε)) / ½)`. -/
theorem v29_at (n : Fin 4) (p q : Fin 4096) :
    val_main_v29 (F := Ideal) x y (ix3 n p q) = wD Cert.Ctx.E Cert.Ctx.H (csR x y) n p q := by
  rw [val_main_v29_apply, val_main_v28_apply, val_main_v26_apply, val_main_v24_apply, val_main_v25_apply,
    val_main_v27_apply, val_main_cst_4_apply, val_main_cst_5_apply, v18_at, v23_at,
    Ideal.ofBits_def, Ideal.ofBits_def, Cert.Ctx.ofBits_one]
  rfl

/-! ## The row totals, the normalised weights and the column maxima -/

theorem v30_at (n : Fin 4) (p : Fin 4096) :
    val_main_v30 (F := Ideal) x y (ix2 n p) = ∑ q' : Fin 4096, wD Cert.Ctx.E Cert.Ctx.H (csR x y) n p q' := by
  rw [val_main_v30_apply, val_main_cst_6_apply, Ideal.ofBits_def, Ideal.ofBits_zero_f32, zero_add]
  refine Finset.sum_congr rfl fun k _ => ?_
  have e : idx_main_v30 (ix2 n p) k = ix3 n p k := by
    funext a
    match a with
    | ⟨0, _⟩ => rfl
    | ⟨1, _⟩ => rfl
    | ⟨2, _⟩ => rfl
  rw [e, v29_at]

theorem v33_at (n : Fin 4) (p q : Fin 4096) :
    val_main_v33 (F := Ideal) x y (ix3 n p q) = cxD Cert.Ctx.E Cert.Ctx.H (csR x y) n p q := by
  have e32 : idx_main_v32 (ix3 n p q) = ix3 n p (⟨0, Nat.one_pos⟩ : Fin 1) := by
    funext a
    match a with
    | ⟨0, _⟩ => rfl
    | ⟨1, _⟩ => rfl
    | ⟨2, _⟩ => rfl
  have e31 : idx_main_v31 (ix3 n p (⟨0, Nat.one_pos⟩ : Fin 1)) = ix2 n p := by
    funext a
    match a with
    | ⟨0, _⟩ => rfl
    | ⟨1, _⟩ => rfl
  rw [val_main_v33_apply, val_main_v32_apply, e32, val_main_v31_apply, e31, v30_at, v29_at]
  rfl

/-- The reference's column maxima are the spelling with quotients. -/
theorem colMax_ref (x y : FVec Ideal Cert.Ctx.SIn .f32) (n : Fin 4) (q : Fin 4096) :
    val_main_v34 (F := Ideal) x y (ix2 n q)
      = Cert.Ctx.colMaxD Cert.Ctx.E Cert.Ctx.H (Cert.Ctx.flat x) (Cert.Ctx.flat y)
          (Cert.Ctx.mu reducesTo_S4x256x64x64_S256_d0_2_3 h_S_ bcast_S_S256 y) n q := by
  unfold val_main_v34
  refine (reduce_max_mid (val_main_v33 (F := Ideal) x y) (val_main_cst_7 (F := Ideal)) cst7_bot n q).trans ?_
  unfold colMaxD
  exact Finset.sup_congr rfl fun p _ => v33_at x y n p q

end Cert.Ctx.Ref

end
-- ==== Proof.LibLayerNorm.lean ====
/-
  Layer normalisation of one row, on the extended reals.

  A row `a` over a finite index type is normalised by subtracting its mean `μ = (∑ a) / c` and scaling by
  the inverse root of `v = (∑ (a - μ)²) / c + ε`.  Written with a reciprocal square root, `(a j - μ) · rsqrt v`,
  or with a quotient, `(a j - μ) / sqrt v`, it is one function as soon as `c` is a positive real and
  `0 < ε`: a square is never negative on the extended reals (`⊥ · ⊥ = ⊤`), so neither is a sum of squares nor
  its quotient by a positive real, hence `0 < v`; and for `0 < v` — a positive real, or `⊤` — the reciprocal root
  is the inverse of the root (`rsqrt ⊤ = 0 = ⊤⁻¹`).  No entry of the row needs to be finite.
-/
import Idealize.ShloMosaic.PureOps.Ideal

noncomputable section

namespace Cert.LayerNorm

open Idealize.ShloMosaic

/-- A square is never negative, at the infinities too. -/
theorem mul_self_nonneg (a : EReal) : 0 ≤ a * a := by
  induction a using EReal.rec with
  | bot => simp
  | coe r => exact_mod_cast _root_.mul_self_nonneg r
  | top => simp

/-- Above zero the reciprocal square root is the inverse of the square root: multiplying by the one is dividing by
    the other, for every extended real `x`. -/
theorem mul_rsqrt_eq_div_sqrt (x y : EReal) (hy : 0 < y) : x * Ideal.rsqrt y = Ideal.div x (Ideal.sqrt y) := by
  induction y using EReal.rec with
  | bot => exact absurd hy (by simp)
  | top =>
    rw [Ideal.rsqrt_top, Ideal.sqrt_top, Ideal.div, if_neg EReal.top_ne_zero, EReal.inv_top]
  | coe r =>
    have hr : 0 < r := by exact_mod_cast hy
    have hs : Real.sqrt r ≠ 0 := (Real.sqrt_pos.mpr hr).ne'
    have h1 : Ideal.rsqrt (r : EReal) = (((Real.sqrt r)⁻¹ : ℝ) : EReal) := by
      rw [Ideal.rsqrt_coe, if_neg (not_lt.mpr hr.le), if_neg hr.ne']
    have h2 : Ideal.sqrt (r : EReal) = ((Real.sqrt r : ℝ) : EReal) := by
      rw [Ideal.sqrt_coe, if_neg (not_lt.mpr hr.le)]
    rw [h1, h2, Ideal.div, if_neg (by exact_mod_cast hs), ← EReal.coe_inv]

variable {ι : Type*} [Fintype ι]

/-- The row's mean: its total over the count `c`. -/
def mean (c : EReal) (a : ι → EReal) : EReal := Ideal.div (∑ k, a k) c

/-- The mean squared deviation from the mean, plus `ε`. -/
def spread (c e : EReal) (a : ι → EReal) : EReal :=
  Ideal.div (∑ k, (a k - mean c a) * (a k - mean c a)) c + e

/-- The normalised entry, scaled by the reciprocal square root. -/
def byRsqrt (c e : EReal) (a : ι → EReal) (j : ι) : EReal := (a j - mean c a) * Ideal.rsqrt (spread c e a)

/-- The normalised entry, divided by the square root. -/
def bySqrt (c e : EReal) (a : ι → EReal) (j : ι) : EReal := Ideal.div (a j - mean c a) (Ideal.sqrt (spread c e a))

/-- With a positive real count and a positive `ε` the quantity under the root is positive. -/
theorem spread_pos {r : ℝ} (hr : 0 < r) {e : EReal} (he : 0 < e) (a : ι → EReal) : 0 < spread (r : EReal) e a := by
  unfold spread
  rw [Ideal.div_coe hr.ne']
  have hA : (0 : EReal) ≤ (∑ k, (a k - mean (r : EReal) a) * (a k - mean (r : EReal) a)) * ((1 / r : ℝ) : EReal) :=
    mul_nonneg (Finset.sum_nonneg fun k _ => mul_self_nonneg _) (by exact_mod_cast (one_div_pos.mpr hr).le)
  exact he.trans_le (le_add_of_nonneg_left hA)

/-- The two spellings of the normalised row are one function. -/
theorem byRsqrt_eq_bySqrt {r : ℝ} (hr : 0 < r) {e : EReal} (he : 0 < e) (a : ι → EReal) (j : ι) :
    byRsqrt (r : EReal) e a j = bySqrt (r : EReal) e a j :=
  mul_rsqrt_eq_div_sqrt _ _ (spread_pos hr he a)

end Cert.LayerNorm

end
-- ==== Proof.Math.lean ====
/-
  The two spellings of the column maxima of the contextual loss are one function wherever every entry is a real
  number and no centred channel vector vanishes.

  Everything is moved to the real numbers.  A centred vector of positive squared length, divided by the root of
  that length or multiplied by the reciprocal root, is one real unit vector; two unit vectors have a cosine at most
  `1`, because `u c · v c ≤ (u c² + v c²) / 2` term by term.  So in every row the largest cosine `M` is at most `1`,
  the clamp at `1` does nothing and the smallest distance is `1 - M`.  With `D = (1 - M) + ε > 0` the two exponents
  `(2 - 2/D) + cos · (2/D)` and `(1 - (1 - cos)/D) / ½` are one real number, so the weights are one positive real;
  the row total is a positive real, multiplying by its reciprocal is dividing by it, and every normalised weight is
  a positive real.  A supremum of positive reals over a nonempty index set exceeds `-1`, so starting the maximum
  from `-1` changes nothing.
-/
import proofs.«172719_j39960375722309_2_alg».proof.Proof.Spec
import proofs.«172719_j39960375722309_2_alg».proof.Proof.LibLayerNorm

noncomputable section

namespace Cert.Ctx

open Idealize.ShloMosaic

variable {N C P : Type} [Fintype C] [Fintype P]

/-! ## Sums of reals, and real unit vectors -/

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Where the squared length is positive the two unit vectors are one. -/
theorem unitM_eq_unitD (z : N → C → P → EReal) (hz : ∀ n p, 0 < ss z n p) : unitM z = unitD z := by
  funext n c p
  exact Cert.LayerNorm.mul_rsqrt_eq_div_sqrt _ _ (hz n p)

/-- The squared length of a real array is the real sum of squares. -/
theorem ss_coe (x : N → C → P → ℝ) (n : N) (p : P) :
    ss (fun n c p => (x n c p : EReal)) n p = ((∑ c, x n c p * x n c p : ℝ) : EReal) := by
  unfold ss
  rw [coe_sum]
  exact Finset.sum_congr rfl fun c _ => (EReal.coe_mul _ _).symm

/-- A real vector of positive squared length over its length, as a real number. -/
theorem unitD_coe (x : N → C → P → ℝ) (n : N) (c : C) (p : P) (hpos : 0 < ∑ c, x n c p * x n c p) :
    unitD (fun n c p => (x n c p : EReal)) n c p
      = ((x n c p / Real.sqrt (∑ c, x n c p * x n c p) : ℝ) : EReal) := by
  unfold unitD
  rw [ss_coe, Ideal.sqrt_coe, if_neg (not_lt.mpr hpos.le), Ideal.div_coe (Real.sqrt_pos.mpr hpos).ne',
    ← EReal.coe_mul, mul_one_div]

/-- A real vector over the root of its positive squared length has squared length `1`. -/
theorem sum_unit_sq (x : C → ℝ) (hpos : 0 < ∑ c, x c * x c) :
    ∑ c, (x c / Real.sqrt (∑ c, x c * x c)) * (x c / Real.sqrt (∑ c, x c * x c)) = 1 := by
  have hs : Real.sqrt (∑ c, x c * x c) * Real.sqrt (∑ c, x c * x c) = ∑ c, x c * x c :=
    Real.mul_self_sqrt hpos.le
  calc ∑ c, (x c / Real.sqrt (∑ c, x c * x c)) * (x c / Real.sqrt (∑ c, x c * x c))
      = ∑ c, (x c * x c) / (∑ c, x c * x c) :=
        Finset.sum_congr rfl fun c _ => by rw [div_mul_div_comm, hs]
    _ = (∑ c, x c * x c) / (∑ c, x c * x c) := (Finset.sum_div _ _ _).symm
    _ = 1 := div_self hpos.ne'

/-- Cauchy–Schwarz for unit vectors: their cosine is at most `1`. -/
theorem sum_mul_le_one (u v : C → ℝ) (hu : ∑ c, u c * u c = 1) (hv : ∑ c, v c * v c = 1) :
    ∑ c, u c * v c ≤ 1 := by
  calc ∑ c, u c * v c ≤ ∑ c, (u c * u c + v c * v c) / 2 :=
        Finset.sum_le_sum fun c _ => by nlinarith [sq_nonneg (u c - v c)]
    _ = (∑ c, u c * u c + ∑ c, v c * v c) / 2 := by rw [← Finset.sum_div, Finset.sum_add_distrib]
    _ = 1 := by rw [hu, hv]; norm_num

/-! ## The cosines -/

/-- The cosines of two real arrays of positive squared lengths are real numbers at most `1`. -/
theorem cos_coe (x y : N → C → P → ℝ) (hx : ∀ n p, 0 < ∑ c, x n c p * x n c p)
    (hy : ∀ n p, 0 < ∑ c, y n c p * y n c p) (n : N) (p q : P) :
    ∃ r : ℝ, r ≤ 1 ∧ cosOf (unitD fun n c p => (x n c p : EReal)) (unitD fun n c p => (y n c p : EReal)) n p q
      = (r : EReal) := by
  refine ⟨∑ c, (x n c p / Real.sqrt (∑ c, x n c p * x n c p)) * (y n c q / Real.sqrt (∑ c, y n c q * y n c q)),
    sum_mul_le_one _ _ (sum_unit_sq (fun c => x n c p) (hx n p)) (sum_unit_sq (fun c => y n c q) (hy n q)), ?_⟩
  unfold cosOf
  rw [coe_sum]
  refine Finset.sum_congr rfl fun c _ => ?_
  rw [unitD_coe x n c p (hx n p), unitD_coe y n c q (hy n q), EReal.coe_mul]

/-! ## One row -/

section Row

variable [Nonempty P] (cs : N → P → P → EReal) (n : N) (p : P) (c : P → ℝ)

/-- A nonempty finite family of reals has a largest member. -/
theorem exists_max (c : P → ℝ) : ∃ q0, ∀ q, c q ≤ c q0 := by
  obtain ⟨q0, -, h⟩ := Finset.exists_max_image Finset.univ c Finset.univ_nonempty
  exact ⟨q0, fun q => h q (Finset.mem_univ q)⟩

/-- The supremum of a row of reals is its largest member. -/
theorem sup_row (hcs : ∀ q, cs n p q = (c q : EReal)) (q0 : P) (hq0 : ∀ q, c q ≤ c q0) :
    (Finset.univ.sup fun q => cs n p q) = (c q0 : EReal) := by
  refine le_antisymm (Finset.sup_le fun q _ => ?_) ?_
  · rw [hcs]; exact EReal.coe_le_coe_iff.mpr (hq0 q)
  · rw [← hcs q0]; exact Finset.le_sup (f := fun q => cs n p q) (Finset.mem_univ q0)

/-- Cosines at most `1`: the clamp does nothing. -/
theorem cmaxM_row (hcs : ∀ q, cs n p q = (c q : EReal)) (hc1 : ∀ q, c q ≤ 1) (q0 : P) (hq0 : ∀ q, c q ≤ c q0) :
    cmaxM cs n p = (c q0 : EReal) := by
  unfold cmaxM
  rw [sup_row cs n p c hcs q0 hq0]
  exact min_eq_left (by exact_mod_cast hc1 q0)

/-- The smallest distance is `1` minus the largest cosine. -/
theorem dminD_row (hcs : ∀ q, cs n p q = (c q : EReal)) (q0 : P) (hq0 : ∀ q, c q ≤ c q0) :
    dminD cs n p = ((1 - c q0 : ℝ) : EReal) := by
  unfold dminD
  refine le_antisymm ?_ (Finset.le_inf fun q _ => ?_)
  · refine (Finset.inf_le (f := fun q => 1 - cs n p q) (Finset.mem_univ q0)).trans ?_
    rw [hcs]; exact le_of_eq (by norm_cast)
  · rw [hcs]
    have : (1 - c q0 : ℝ) ≤ 1 - c q := by linarith [hq0 q]
    exact_mod_cast this

variable (ε : ℝ)

/-- The row's scale is the reciprocal of the positive real `(1 - M) + ε`. -/
theorem sM_row (hε : 0 < ε) (hcs : ∀ q, cs n p q = (c q : EReal)) (hc1 : ∀ q, c q ≤ 1) (q0 : P)
    (hq0 : ∀ q, c q ≤ c q0) : sM (ε : EReal) cs n p = ((1 / ((1 - c q0) + ε) : ℝ) : EReal) := by
  unfold sM
  rw [cmaxM_row cs n p c hcs hc1 q0 hq0]
  have hD : (1 - c q0) + ε ≠ 0 := by have := hc1 q0; intro h; linarith
  have h1 : (1 - (c q0 : EReal)) + (ε : EReal) = (((1 - c q0) + ε : ℝ) : EReal) := by norm_cast
  rw [h1, Ideal.div_coe hD, one_mul]

/-- The weight with the affine exponent, as a real number. -/
theorem wM_row (hε : 0 < ε) (hcs : ∀ q, cs n p q = (c q : EReal)) (hc1 : ∀ q, c q ≤ 1) (q0 : P)
    (hq0 : ∀ q, c q ≤ c q0) (q : P) :
    wM (ε : EReal) cs n p q
      = ((Real.exp ((2 - 2 * (1 / ((1 - c q0) + ε))) + c q * (2 * (1 / ((1 - c q0) + ε)))) : ℝ) : EReal) := by
  unfold wM
  rw [sM_row cs n p c ε hε hcs hc1 q0 hq0, hcs q]
  have h1 : ((2 : EReal) - 2 * ((1 / ((1 - c q0) + ε) : ℝ) : EReal))
        + (c q : EReal) * (2 * ((1 / ((1 - c q0) + ε) : ℝ) : EReal))
      = (((2 - 2 * (1 / ((1 - c q0) + ε))) + c q * (2 * (1 / ((1 - c q0) + ε))) : ℝ) : EReal) := by norm_cast
  rw [h1, Ideal.exp_coe]

/-- The weight with the quotient exponent is the same real number. -/
theorem wD_row (hε : 0 < ε) (hcs : ∀ q, cs n p q = (c q : EReal)) (hc1 : ∀ q, c q ≤ 1) (q0 : P)
    (hq0 : ∀ q, c q ≤ c q0) (q : P) :
    wD (ε : EReal) ((1 / 2 : ℝ) : EReal) cs n p q
      = ((Real.exp ((2 - 2 * (1 / ((1 - c q0) + ε))) + c q * (2 * (1 / ((1 - c q0) + ε)))) : ℝ) : EReal) := by
  unfold wD
  rw [dminD_row cs n p c hcs q0 hq0, hcs q]
  have hD : (1 - c q0) + ε ≠ 0 := by have := hc1 q0; intro h; linarith
  have h1 : ((1 - c q0 : ℝ) : EReal) + (ε : EReal) = (((1 - c q0) + ε : ℝ) : EReal) := by norm_cast
  have h2 : (1 : EReal) - (c q : EReal) = ((1 - c q : ℝ) : EReal) := by norm_cast
  rw [h1, h2, Ideal.div_coe hD, ← EReal.coe_mul]
  have h3 : (1 : EReal) - (((1 - c q) * (1 / ((1 - c q0) + ε)) : ℝ) : EReal)
      = ((1 - (1 - c q) * (1 / ((1 - c q0) + ε)) : ℝ) : EReal) := by norm_cast
  rw [h3, Ideal.div_coe (by norm_num : (1 / 2 : ℝ) ≠ 0), ← EReal.coe_mul, Ideal.exp_coe]
  congr 2
  field_simp
  ring

/-- In a row of cosines at most `1` the two normalised weights are one positive real number. -/
theorem cx_row (hε : 0 < ε) (hcs : ∀ q, cs n p q = (c q : EReal)) (hc1 : ∀ q, c q ≤ 1) (q : P) :
    ∃ r : ℝ, 0 < r ∧ cxM (ε : EReal) cs n p q = (r : EReal)
      ∧ cxD (ε : EReal) ((1 / 2 : ℝ) : EReal) cs n p q = (r : EReal) := by
  obtain ⟨q0, hq0⟩ := exists_max c
  have hS : 0 < ∑ q', Real.exp ((2 - 2 * (1 / ((1 - c q0) + ε))) + c q' * (2 * (1 / ((1 - c q0) + ε)))) :=
    Finset.sum_pos (fun q' _ => Real.exp_pos _) Finset.univ_nonempty
  refine ⟨Real.exp ((2 - 2 * (1 / ((1 - c q0) + ε))) + c q * (2 * (1 / ((1 - c q0) + ε))))
      * (1 / ∑ q', Real.exp ((2 - 2 * (1 / ((1 - c q0) + ε))) + c q' * (2 * (1 / ((1 - c q0) + ε))))),
    mul_pos (Real.exp_pos _) (one_div_pos.mpr hS), ?_, ?_⟩
  · unfold cxM
    simp_rw [wM_row cs n p c ε hε hcs hc1 q0 hq0]
    rw [← coe_sum, Ideal.div_coe hS.ne', one_mul, ← EReal.coe_mul]
  · unfold cxD
    simp_rw [wD_row cs n p c ε hε hcs hc1 q0 hq0]
    rw [← coe_sum, Ideal.div_coe hS.ne', ← EReal.coe_mul]

end Row

/-! ## The column maxima -/

/-- The two spellings of the column maxima agree wherever every entry is real and no centred vector vanishes. -/
theorem colMaxM_eq_colMaxD {N C P : Type} [Fintype C] [Fintype P] [Nonempty P] (ε : ℝ) (hε : 0 < ε)
    (X Y : N → C → P → EReal) (mu : C → EReal)
    (hX : ∀ n c p, ∃ r : ℝ, X n c p = (r : EReal)) (hY : ∀ n c p, ∃ r : ℝ, Y n c p = (r : EReal))
    (hmu : ∀ c, ∃ r : ℝ, mu c = (r : EReal))
    (hsx : ∀ n p, 0 < ss (cen X mu) n p) (hsy : ∀ n p, 0 < ss (cen Y mu) n p) (n : N) (q : P) :
    colMaxM (ε : EReal) X Y mu n q = colMaxD (ε : EReal) ((1 / 2 : ℝ) : EReal) X Y mu n q := by
  -- the centred arrays are real
  have hcX : ∀ n c p, ∃ r : ℝ, cen X mu n c p = (r : EReal) := fun n c p => by
    obtain ⟨a, ha⟩ := hX n c p
    obtain ⟨b, hb⟩ := hmu c
    exact ⟨a - b, by unfold cen; rw [ha, hb, EReal.coe_sub]⟩
  have hcY : ∀ n c p, ∃ r : ℝ, cen Y mu n c p = (r : EReal) := fun n c p => by
    obtain ⟨a, ha⟩ := hY n c p
    obtain ⟨b, hb⟩ := hmu c
    exact ⟨a - b, by unfold cen; rw [ha, hb, EReal.coe_sub]⟩
  choose x hx using hcX
  choose y hy using hcY
  have hXe : cen X mu = fun n c p => (x n c p : EReal) := by funext n c p; exact hx n c p
  have hYe : cen Y mu = fun n c p => (y n c p : EReal) := by funext n c p; exact hy n c p
  unfold colMaxM colMaxD
  rw [hXe] at hsx ⊢
  rw [hYe] at hsy ⊢
  rw [unitM_eq_unitD _ hsx, unitM_eq_unitD _ hsy]
  -- their squared lengths are positive reals, so the cosines are reals at most one
  have hsx' : ∀ n p, 0 < ∑ c, x n c p * x n c p := fun n p => by
    have h := hsx n p; rw [ss_coe] at h; exact EReal.coe_pos.mp h
  have hsy' : ∀ n p, 0 < ∑ c, y n c p * y n c p := fun n p => by
    have h := hsy n p; rw [ss_coe] at h; exact EReal.coe_pos.mp h
  choose cr hcr1 hcr using cos_coe x y hsx' hsy'
  generalize cosOf (unitD fun n c p => (x n c p : EReal)) (unitD fun n c p => (y n c p : EReal)) = cs at hcr ⊢
  -- row by row the normalised weights are one positive real
  choose r hr0 hrM hrD using fun p => cx_row cs n p (cr n p) ε hε (hcr n p) (hcr1 n p) q
  simp_rw [hrM, hrD]
  -- and a supremum of positive reals beats the start value
  refine max_eq_right ?_
  obtain ⟨p0⟩ := ‹Nonempty P›
  calc (-1 : EReal) ≤ (r p0 : EReal) := by
        have h : ((-1 : ℝ) : EReal) ≤ (r p0 : EReal) := EReal.coe_le_coe_iff.mpr (by linarith [hr0 p0])
        rwa [EReal.coe_neg, EReal.coe_one] at h
    _ ≤ Finset.univ.sup fun p => (r p : EReal) :=
        Finset.le_sup (f := fun p => (r p : EReal)) (Finset.mem_univ p0)

end Cert.Ctx

end
-- ==== Proof.PreFacts.lean ====
/-
  The precondition, read back.

  The precondition is the conjunction of four statements about the two inputs `x` and `y`, each an `and` over every
  index: `|x| < +∞` at every entry, the same for `y`, and at every batch and position the sum over the 256 channels
  of `(x - mean)²` is positive, the same for `y`; here `mean` is the per-channel mean of `y`, its total over batch
  and positions divided by their number `16384`, reshaped and broadcast over the input's shape.

  An extended real whose absolute value `max a (-a)` lies below `+∞` is a real number.  A finite sum of real
  numbers is a real number, and a real number divided by `16384` is one, so every per-channel mean is real.  The sum
  over one axis read at an index is zero plus the sum over the channels, the broadcast mean read at `(n, c, h, w)` is
  the mean at channel `c`, and with `h = p / 64`, `w = p % 64` the positive sum is the squared length of the
  centred channel vector at position `p`.
-/
import proofs.«172719_j39960375722309_2_alg».proof.Proof.Gen.Pre_finite_inputs
import proofs.«172719_j39960375722309_2_alg».proof.Pre_finite_inputs
import proofs.«172719_j39960375722309_2_alg».proof.Proof.Shared
import Idealize.ShloMosaic.Lib.ReduceAll
import Idealize.ShloMosaic.Lib.IdealHost
import Idealize.ShloMosaic.Lib.Pipeline.Value

noncomputable section

namespace Cert.Ctx.Pre

open Idealize.ShloMosaic Idealize.ShloMosaic.ValueIdx Cert.Pre_finite_inputs

/-- The rank-0 shape has one index. -/
local instance idx_S_subsingleton : Subsingleton S_.Idx := ⟨fun a b => funext fun d => d.elim0⟩

/-! ## Element facts -/

/-- The ordered `<` comparison that answers 1 is the strict order. -/
theorem lt_of_cmp_olt {a b : EReal} (h : Ideal.cmp .olt a b = 1#1) : a < b := by
  by_contra hn
  simp [Ideal.cmp, hn] at h

/-- The ordered `>` comparison that answers 1 is the strict order, reversed. -/
theorem lt_of_cmp_ogt {a b : EReal} (h : Ideal.cmp .ogt a b = 1#1) : b < a := by
  by_contra hn
  simp [Ideal.cmp, hn] at h

/-- An extended real whose absolute value is below `+∞` is a real number. -/
theorem real_of_abs_lt_top {a : EReal} (h : max a (-a) < ⊤) : ∃ r : ℝ, a = (r : EReal) := by
  induction a using EReal.rec with
  | bot => simp at h
  | top => simp at h
  | coe r => exact ⟨r, rfl⟩

/-- A finite sum of real numbers is a real number. -/
theorem sum_real {ι : Type} (s : Finset ι) (f : ι → EReal) (hf : ∀ i, ∃ r : ℝ, f i = (r : EReal)) :
    ∃ r : ℝ, ∑ i ∈ s, f i = (r : EReal) := by
  classical
  induction s using Finset.induction_on with
  | empty => exact ⟨0, by simp⟩
  | insert a s ha ih =>
    obtain ⟨r, hr⟩ := ih
    obtain ⟨q, hq⟩ := hf a
    exact ⟨q + r, by rw [Finset.sum_insert ha, hr, hq, EReal.coe_add]⟩

/-- The word `0x46800000` denotes `16384 = 4 · 64 · 64`. -/
theorem ofBits_16384 : Ideal.ofBits .f32 0x46800000#32 = ((16384 : ℝ) : EReal) := by
  simp [Ideal.ofBits, Ideal.ieee, -EReal.coe_mul]; norm_num

/-! ## The predicate's conjuncts -/

/-- The mean as the predicate spells it: the quotient reshaped to `[1, 256, 1, 1]` and broadcast over the input's shape. -/
def meanB (y : FVec Ideal SIn .f32) : FVec Ideal SIn .f32 :=
  broadcastInDim S4x256x64x64 ![0, 1, 2, 3] Facts.bcast_S1x256x1x1_S4x256x64x64_0_1_2_3
    (shapeCast S1x256x1x1
      (Host.divf (Host.reduceAdd y (constant S_ .f32 0x00000000#32) Facts.reducesTo_S4x256x64x64_S256_d0_2_3 Facts.h_S_)
        (broadcastInDim S256 ![] Facts.bcast_S_S256 (constant S_ .f32 0x46800000#32)))
      Facts.shapeCasts_S256_S1x256x1x1)

/-- The sum over channels of the squares of an input less the mean, as the predicate spells it. -/
def sumSq (x y : FVec Ideal SIn .f32) : FVec Ideal S4x64x64 .f32 :=
  Host.reduceAdd (mulf (subf x (meanB y)) (subf x (meanB y))) (constant S_ .f32 0x00000000#32)
    Facts.reducesTo_S4x256x64x64_S4x64x64_d1 Facts.h_S_

/-- The predicate, conjunct by conjunct, element by element. -/
theorem decode (x y : FVec Ideal SIn .f32) (h : Cert.Pre_finite_inputs.fn (F := Ideal) x y = fun _ => 1#1) :
    (∀ i : SIn.Idx, max (x i) (-(x i)) < ⊤) ∧ (∀ i : SIn.Idx, max (y i) (-(y i)) < ⊤) ∧
    (∀ i : S4x64x64.Idx, 0 < sumSq x y i) ∧ (∀ i : S4x64x64.Idx, 0 < sumSq y y i) := by
  have h' := congrFun h ix0
  dsimp only [fn, fn_part1] at h'
  obtain ⟨h123, h4⟩ := IntOp.andi_eq_one.1 h'
  obtain ⟨h12, h3⟩ := IntOp.andi_eq_one.1 h123
  obtain ⟨h1, h2⟩ := IntOp.andi_eq_one.1 h12
  refine ⟨fun i => ?_, fun i => ?_, fun i => ?_, fun i => ?_⟩
  · have e := lt_of_cmp_olt (Host.reduce_andi_all _ _ _ _ ix0 h1 i)
    rw [broadcastInDim_scalar_apply, constant_apply, Cert.Ctx.ofBits_top] at e
    exact e
  · have e := lt_of_cmp_olt (Host.reduce_andi_all _ _ _ _ ix0 h2 i)
    rw [broadcastInDim_scalar_apply, constant_apply, Cert.Ctx.ofBits_top] at e
    exact e
  · have e := lt_of_cmp_ogt (Host.reduce_andi_all _ _ _ _ ix0 h3 i)
    rw [broadcastInDim_scalar_apply, constant_apply, Ideal.ofBits_zero_f32] at e
    exact e
  · have e := lt_of_cmp_ogt (Host.reduce_andi_all _ _ _ _ ix0 h4 i)
    rw [broadcastInDim_scalar_apply, constant_apply, Ideal.ofBits_zero_f32] at e
    exact e

/-! ## Reading the mean and the sum of squares at an index -/

/-- The broadcast mean read at an index is the per-channel mean at that index's channel. -/
theorem meanB_apply (hred : SIn.ReducesTo [0, 2, 3] SCh) (h0 : 0 < S0.numel)
    (hb : S0.BroadcastsInDim SCh (![] : Fin 0 → Fin SCh.rank)) (y : FVec Ideal SIn .f32)
    (n : Fin 4) (c : Fin 256) (r : Fin 64) (w : Fin 64) :
    meanB y (ix4 n c r w) = Cert.Ctx.mu hred h0 hb y c := by
  unfold meanB
  rw [broadcastInDim_apply (![0, 1, 2, 3] : Fin 4 → Fin 4) _ _ (ix4 n c r w) (ix4 (0 : Fin 1) c (0 : Fin 1) (0 : Fin 1))
      (fun a => match a with
        | ⟨0, _⟩ => by show (0 : Nat) = if (1 : Nat) = 1 then 0 else n.val; rw [if_pos rfl]
        | ⟨1, _⟩ => by show c.val = if (256 : Nat) = 1 then 0 else c.val; rw [if_neg (by decide)]
        | ⟨2, _⟩ => by show (0 : Nat) = if (1 : Nat) = 1 then 0 else r.val; rw [if_pos rfl]
        | ⟨3, _⟩ => by show (0 : Nat) = if (1 : Nat) = 1 then 0 else w.val; rw [if_pos rfl])]
  rw [shapeCast_apply _ _ (ix4 (0 : Fin 1) c (0 : Fin 1) (0 : Fin 1)) (ix1 c)
      (by rewrite [Shape.rowMajor_val_one, Shape.rowMajor_val_four]
          show c.val = (((0 : Nat) * 256 + c.val) * 1 + 0) * 1 + 0
          omega)]
  rfl

/-- The sum of squares read at an index: zero plus the sum over the 256 channels. -/
theorem sumSq_apply (x y : FVec Ideal SIn .f32) (n : Fin 4) (r : Fin 64) (w : Fin 64) :
    sumSq x y (ix3 n r w)
      = 0 + ∑ c : Fin 256, (x (ix4 n c r w) - meanB y (ix4 n c r w)) * (x (ix4 n c r w) - meanB y (ix4 n c r w)) := by
  unfold sumSq
  generalize meanB y = m
  simp only [Host.reduceAdd, Ideal.hostReduceAdd_def]
  rw [Ideal.hostReduceAdd_single Facts.reducesTo_S4x256x64x64_S4x64x64_d1 (by decide)]
  rw [constant_apply, Ideal.ofBits_zero_f32]
  refine congrArg (_ + ·) (Finset.sum_congr rfl fun k _ => ?_)
  rw [mulf_apply, subf_apply]
  have e : ∀ a b : SIn.Idx, a = b → (x a - m a) * (x a - m a) = (x b - m b) * (x b - m b) := fun a b hab => by rw [hab]
  exact e _ _ (funext fun a => Fin.ext (by match a with | ⟨0, _⟩ => rfl | ⟨1, _⟩ => rfl | ⟨2, _⟩ => rfl | ⟨3, _⟩ => rfl))

/-- The per-channel mean of an array of reals is a real. -/
theorem mu_real (hred : SIn.ReducesTo [0, 2, 3] SCh) (h0 : 0 < S0.numel)
    (hb : S0.BroadcastsInDim SCh (![] : Fin 0 → Fin SCh.rank)) (y : FVec Ideal SIn .f32)
    (fy : ∀ i : SIn.Idx, ∃ r : ℝ, y i = (r : EReal)) (c : Fin 256) :
    ∃ r : ℝ, Cert.Ctx.mu hred h0 hb y c = (r : EReal) := by
  unfold Cert.Ctx.mu Cert.Ctx.muArr
  rw [hostDivf_apply, hostReduceAdd_apply, broadcastInDim_scalar_apply, constant_apply, constant_apply,
    Ideal.ofBits_zero_f32, ofBits_16384]
  obtain ⟨s, hs⟩ := sum_real (Finset.univ.filter fun i => hred.drop i = ix1 c) y fy
  have e : Ideal.hostReduceAdd hred y 0 (ix1 c) = ((s : ℝ) : EReal) := by
    show 0 + ∑ i ∈ Finset.univ.filter (fun i => hred.drop i = ix1 c), y i = _
    rw [hs, zero_add]
  rw [e, Ideal.div_coe (by norm_num), ← EReal.coe_mul]
  exact ⟨_, rfl⟩

/-! ## The precondition's content -/

/-- What the precondition says: every entry of both inputs is a real number, so is every per-channel mean, and no
    centred channel vector of either input vanishes. -/
theorem of_pre (hred : Cert.Ctx.SIn.ReducesTo [0, 2, 3] Cert.Ctx.SCh) (h0 : 0 < Cert.Ctx.S0.numel)
    (hb : Cert.Ctx.S0.BroadcastsInDim Cert.Ctx.SCh (![] : Fin 0 → Fin Cert.Ctx.SCh.rank))
    (x y : FVec Ideal Cert.Ctx.SIn .f32)
    (h : Cert.Pre_finite_inputs.fn (F := Ideal) x y = fun _ => 1#1) :
    (∀ n c p, ∃ r : ℝ, Cert.Ctx.flat x n c p = (r : EReal)) ∧
    (∀ n c p, ∃ r : ℝ, Cert.Ctx.flat y n c p = (r : EReal)) ∧
    (∀ c, ∃ r : ℝ, Cert.Ctx.mu hred h0 hb y c = (r : EReal)) ∧
    (∀ n p, 0 < Cert.Ctx.ss (Cert.Ctx.cen (Cert.Ctx.flat x) (Cert.Ctx.mu hred h0 hb y)) n p) ∧
    (∀ n p, 0 < Cert.Ctx.ss (Cert.Ctx.cen (Cert.Ctx.flat y) (Cert.Ctx.mu hred h0 hb y)) n p) := by
  obtain ⟨hx, hy, h3, h4⟩ := decode x y h
  have fx : ∀ i : SIn.Idx, ∃ r : ℝ, x i = (r : EReal) := fun i => real_of_abs_lt_top (hx i)
  have fy : ∀ i : SIn.Idx, ∃ r : ℝ, y i = (r : EReal) := fun i => real_of_abs_lt_top (hy i)
  refine ⟨fun n c p => fx _, fun n c p => fy _, mu_real hred h0 hb y fy, fun n p => ?_, fun n p => ?_⟩
  · have e := h3 (ix3 n (⟨p.val / 64, by have := p.isLt; omega⟩ : Fin 64) (⟨p.val % 64, by have := p.isLt; omega⟩ : Fin 64))
    rw [sumSq_apply, zero_add] at e
    simp only [meanB_apply hred h0 hb] at e
    exact e
  · have e := h4 (ix3 n (⟨p.val / 64, by have := p.isLt; omega⟩ : Fin 64) (⟨p.val % 64, by have := p.isLt; omega⟩ : Fin 64))
    rw [sumSq_apply, zero_add] at e
    simp only [meanB_apply hred h0 hb] at e
    exact e

end Cert.Ctx.Pre

end
-- ==== Proof.lean ====
/-
  A Pallas contextual-loss kernel against its jnp reference, on the extended reals.

  Both programs centre the two inputs at the per-channel mean of the second, turn every position's channel vector into
  a unit vector, form the cosines between positions of the first input and positions of the second, turn each row of
  cosines into weights `exp ((1 - d / (dmin + ε)) / ½)` of the distances `d = 1 - cos`, normalise each row by its
  total, take for each column the maximum over the rows, and finish with the mean over columns, `-log (· + ε)`, and
  the mean over the batch.  The reference divides where the kernel multiplies by a reciprocal (the root, the row
  total), the kernel clamps the row maximum of the cosines at `1`, writes the exponent as an affine function of the
  cosine, and starts its running column maximum from `-1`.

  The two agree wherever every input entry is finite and no centred channel vector is zero — where the reference's
  own quotient by the vector's length is defined: cosines of unit vectors are at most `1` (Cauchy–Schwarz), so the
  clamp does nothing and `dmin = 1 - cmax ≥ 0`; the two exponents are one real number; every weight and every row
  total is a positive real, so a product with the reciprocal is the quotient and `-1` never wins a maximum.  At a
  zero vector the two spellings differ (`0 · rsqrt 0 = 0` but `0 / sqrt 0` is not), which is why the precondition
  excludes it.
-/
import proofs.«172719_j39960375722309_2_alg».proof.Defs
import proofs.«172719_j39960375722309_2_alg».proof.Proof.Gen.Kernel
import proofs.«172719_j39960375722309_2_alg».proof.Proof.Gen.Kernel.Frame
import proofs.«172719_j39960375722309_2_alg».proof.Proof.Gen.KernelIdeal
import proofs.«172719_j39960375722309_2_alg».proof.Proof.Gen.KernelIdeal.Frame
import proofs.«172719_j39960375722309_2_alg».proof.Proof.Gen.ReferenceIdeal
import proofs.«172719_j39960375722309_2_alg».proof.Proof.Gen.Pre_finite_inputs
import proofs.«172719_j39960375722309_2_alg».proof.Proof.Gen.ReferenceIdeal.Run
import proofs.«172719_j39960375722309_2_alg».proof.Proof.Gen.ReferenceIdeal.Read
import proofs.«172719_j39960375722309_2_alg».proof.Proof.KRun
import proofs.«172719_j39960375722309_2_alg».proof.Proof.KValue
import proofs.«172719_j39960375722309_2_alg».proof.Proof.Ref
import proofs.«172719_j39960375722309_2_alg».proof.Proof.Math
import proofs.«172719_j39960375722309_2_alg».proof.Proof.PreFacts
import Idealize.ShloMosaic.Adequacy
import Idealize.ShloMosaic.Init

noncomputable section

namespace Cert.Proof

open Idealize.ShloMosaic Idealize.ShloMosaic.ValueIdx Idealize.ShloMosaic.TcCoe Idealize.SL.Sem

/-- Under the precondition the two spellings of the column maxima agree. -/
theorem colMax_bridge (hred : Cert.Ctx.SIn.ReducesTo [0, 2, 3] Cert.Ctx.SCh) (h0 : 0 < Cert.Ctx.S0.numel)
    (hb : Cert.Ctx.S0.BroadcastsInDim Cert.Ctx.SCh (![] : Fin 0 → Fin Cert.Ctx.SCh.rank))
    (x y : FVec Ideal Cert.Ctx.SIn .f32) (h : Cert.Pre_finite_inputs.fn (F := Ideal) x y = fun _ => 1#1)
    (n : Fin 4) (q : Fin 4096) :
    Cert.Ctx.colMaxM Cert.Ctx.E (Cert.Ctx.flat x) (Cert.Ctx.flat y) (Cert.Ctx.mu hred h0 hb y) n q
      = Cert.Ctx.colMaxD Cert.Ctx.E Cert.Ctx.H (Cert.Ctx.flat x) (Cert.Ctx.flat y) (Cert.Ctx.mu hred h0 hb y) n q := by
  obtain ⟨hX, hY, hmu, hsx, hsy⟩ := Cert.Ctx.Pre.of_pre hred h0 hb x y h
  obtain ⟨ε, hε, hE⟩ := Cert.Ctx.E_pos
  rw [hE, Cert.Ctx.H_eq]
  exact Cert.Ctx.colMaxM_eq_colMaxD ε hε _ _ _ hX hY hmu hsx hsy n q

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The reference's result, from a memory agreeing with the kernel's on the arguments, is the kernel's. -/
theorem ref_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Value.res_main_v43 m' c = Cert.Ctx.KV.resK m c := by
  rw [Cert.ReferenceIdeal.Read.val_main_v43_eq, Cert.Ctx.Ref.tail_ref, h0, h1]
  unfold Cert.Ctx.KV.resK
  refine congrArg (Cert.Ctx.tail _ _ _ _) (funext fun i => ?_)
  obtain ⟨n, q, rfl⟩ : ∃ (n : Fin 4) (q : Fin 4096), i = ix2 n q := ⟨i 0, i 1, eq_ix2 i⟩
  rw [Cert.Ctx.Ref.colMax_ref]
  exact (colMax_bridge _ _ _ _ _ (hpre c) n q).symm

theorem algebraic : Cert.algebraic_KernelIdeal_ReferenceIdeal := by
  intro m ρ m' ρ' hpre hagree
  refine ⟨fun c => Cert.Ctx.KV.resK m c, ?_, ?_⟩
  · exact (θ_run Cert.KernelIdeal.defs _ _).mono
      (fun r h c => ⟨(h c).1.trans (Cert.Ctx.KV.result_eq m ρ c), (h c).2.1, (h c).2.2⟩)
      (Cert.Ctx.KRun.run_value (F := Ideal) m ρ)
  · exact (θ_run Cert.ReferenceIdeal.defs _ _).mono
      (fun r h c => ⟨(h c).1.trans (ref_result m m' hpre c (hagree c).1 (hagree c).2), (h c).2.1, (h c).2.2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
